-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S2x320000 : Shape := ⟨2, ![2, 320000]⟩
abbrev S320000 : Shape := ⟨1, ![320000]⟩
abbrev S128x256 : Shape := ⟨2, ![128, 256]⟩
abbrev S256 : Shape := ⟨1, ![256]⟩
abbrev S256x256 : Shape := ⟨2, ![256, 256]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S320000 : S_.BroadcastsInDim S320000 (![] : Fin 0 → Fin S320000.rank)
  reducesTo_S320000_S_d0 : S320000.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part3 {F : FTy → Type} [FloatOps F] (main_arg12 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  main_v58

def fn_part2 {F : FTy → Type} [FloatOps F] (main_arg8 : FVec F S256 .f32) (main_arg9 : FVec F S256 .f32) (main_arg10 : FVec F S256 .f32) (main_arg11 : FVec F S256 .f32) (main_arg12 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg12 main_v48 main_v49 main_v50

def fn_part1 {F : FTy → Type} [FloatOps F] (main_arg5 : FVec F S256x256 .f32) (main_arg6 : FVec F S256 .f32) (main_arg7 : FVec F S128x256 .f32) (main_arg8 : FVec F S256 .f32) (main_arg9 : FVec F S256 .f32) (main_arg10 : FVec F S256 .f32) (main_arg11 : FVec F S256 .f32) (main_arg12 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S128x256 .f32 := Host.absf main_arg7
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S20000x128 .f32) (main_arg1 : IVec S2x320000 32) (main_arg2 : FVec F S320000 .f32) (main_arg3 : FVec F S128x256 .f32) (main_arg4 : FVec F S256 .f32) (main_arg5 : FVec F S256x256 .f32) (main_arg6 : FVec F S256 .f32) (main_arg7 : FVec F S128x256 .f32) (main_arg8 : FVec F S256 .f32) (main_arg9 : FVec F S256 .f32) (main_arg10 : FVec F S256 .f32) (main_arg11 : FVec F S256 .f32) (main_arg12 : FVec F S256 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S320000 .f32 := Host.absf main_arg2
  let main_cst_0 : FVec F S_ .f32 := constant S_ .f32 0x7F800000#32
  let main_v5 : FVec F S320000 .f32 := broadcastInDim S320000 ![] bcast_S_S320000 main_cst_0
  let main_v6 : IVec S320000 1 := cmpf .olt main_v4 main_v5
  let main_c_1 : IVec S_ 1 := constantI S_ 1 1#1
  let main_v7 : IVec S_ 1 := (fun x v => Host.reduce IntOp.andi x v reducesTo_S320000_S_d0 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_arg11 main_arg12 main_v13 main_v16
-- ==== Kernel.lean ====
abbrev S20000x128 : Shape := ⟨2, ![20000, 128]⟩
abbrev S2x320000 : Shape := ⟨2, ![2, 320000]⟩
abbrev S320000 : Shape := ⟨1, ![320000]⟩
abbrev S128x256 : Shape := ⟨2, ![128, 256]⟩
abbrev S256 : Shape := ⟨1, ![256]⟩
abbrev S256x256 : Shape := ⟨2, ![256, 256]⟩
abbrev S20000 : Shape := ⟨1, ![20000]⟩
abbrev S1x320000 : Shape := ⟨2, ![1, 320000]⟩
abbrev S340000 : Shape := ⟨1, ![340000]⟩
abbrev S_ : Shape := ⟨0, ![]⟩
abbrev S340000x1 : Shape := ⟨2, ![340000, 1]⟩
abbrev S1x256 : Shape := ⟨2, ![1, 256]⟩
abbrev S20000x256 : Shape := ⟨2, ![20000, 256]⟩
abbrev S2000x128 : Shape := ⟨2, ![2000, 128]⟩
abbrev S2000x256 : Shape := ⟨2, ![2000, 256]⟩
abbrev S340000x256 : Shape := ⟨2, ![340000, 256]⟩
abbrev S2000 : Shape := ⟨1, ![2000]⟩
abbrev S2000x1 : Shape := ⟨2, ![2000, 1]⟩

abbrev nBuf : Space → Nat
  | .hbm => 99
  | .vmem => 32
  | .smem => 0
  | _ => 0

abbrev bufTy : (tb : Table) → Fin (tcTables nBuf tb) → BufTy
  | .hbm, ⟨0, _⟩ => ⟨S20000x128, .f32⟩
  | .hbm, ⟨1, _⟩ => ⟨S2x320000, .i32⟩
  | .hbm, ⟨2, _⟩ => ⟨S320000, .f32⟩
  | .hbm, ⟨3, _⟩ => ⟨S128x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S128x256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S20000, .i32⟩
  | .hbm, ⟨14, _⟩ => ⟨S1x320000, .i32⟩
  | .hbm, ⟨15, _⟩ => ⟨S320000, .i32⟩
  | .hbm, ⟨16, _⟩ => ⟨S340000, .i32⟩
  | .hbm, ⟨17, _⟩ => ⟨S1x320000, .i32⟩
  | .hbm, ⟨18, _⟩ => ⟨S320000, .i32⟩
  | .hbm, ⟨19, _⟩ => ⟨S340000, .i32⟩
  | .hbm, ⟨20, _⟩ => ⟨S_, .f32⟩
  | .hbm, ⟨21, _⟩ => ⟨S20000, .f32⟩
  | .hbm, ⟨22, _⟩ => ⟨S340000, .f32⟩
  | .hbm, ⟨23, _⟩ => ⟨S_, .f32⟩
  | .hbm, ⟨24, _⟩ => ⟨S20000, .f32⟩
  | .hbm, ⟨25, _⟩ => ⟨S340000x1, .i32⟩
  | .hbm, ⟨26, _⟩ => ⟨S20000, .f32⟩
  | .hbm, ⟨27, _⟩ => ⟨S_, .f32⟩
  | .hbm, ⟨28, _⟩ => ⟨S20000, .f32⟩
  | .hbm, ⟨29, _⟩ => ⟨S20000, .i1⟩
  | .hbm, ⟨30, _⟩ => ⟨S20000, .f32⟩
  | .hbm, ⟨31, _⟩ => ⟨S_, .f32⟩
  | .hbm, ⟨32, _⟩ => ⟨S_, .f32⟩
  | .hbm, ⟨33, _⟩ => ⟨S20000, .f32⟩
  | .hbm, ⟨34, _⟩ => ⟨S20000, .f32⟩
  | .hbm, ⟨35, _⟩ => ⟨S_, .i32⟩
  | .hbm, ⟨36, _⟩ => ⟨S340000, .i32⟩
  | .hbm, ⟨37, _⟩ => ⟨S340000, .i1⟩
  | .hbm, ⟨38, _⟩ => ⟨S_, .i32⟩
  | .hbm, ⟨39, _⟩ => ⟨S340000, .i32⟩
  | .hbm, ⟨40, _⟩ => ⟨S340000, .i32⟩
  | .hbm, ⟨41, _⟩ => ⟨S340000, .i32⟩
  | .hbm, ⟨42, _⟩ => ⟨S340000x1, .i32⟩
  | .hbm, ⟨43, _⟩ => ⟨S340000, .f32⟩
  | .hbm, ⟨44, _⟩ => ⟨S340000, .f32⟩
  | .hbm, ⟨45, _⟩ => ⟨S_, .i32⟩
  | .hbm, ⟨46, _⟩ => ⟨S340000, .i32⟩
  | .hbm, ⟨47, _⟩ => ⟨S340000, .i1⟩
  | .hbm, ⟨48, _⟩ => ⟨S_, .i32⟩
  | .hbm, ⟨49, _⟩ => ⟨S340000, .i32⟩
  | .hbm, ⟨50, _⟩ => ⟨S340000, .i32⟩
  | .hbm, ⟨51, _⟩ => ⟨S340000, .i32⟩
  | .hbm, ⟨52, _⟩ => ⟨S340000x1, .i32⟩
  | .hbm, ⟨53, _⟩ => ⟨S340000, .f32⟩
  | .hbm, ⟨54, _⟩ => ⟨S340000, .f32⟩
  | .hbm, ⟨55, _⟩ => ⟨S1x256, .f32⟩
  | .hbm, ⟨56, _⟩ => ⟨S20000x256, .f32⟩
  | .hbm, ⟨57, _⟩ => ⟨S20000x256, .f32⟩
  | .hbm, ⟨58, _⟩ => ⟨S340000x1, .f32⟩
  | .hbm, ⟨59, _⟩ => ⟨S_, .i32⟩
  | .hbm, ⟨60, _⟩ => ⟨S340000, .i32⟩
  | .hbm, ⟨61, _⟩ => ⟨S340000, .i1⟩
  | .hbm, ⟨62, _⟩ => ⟨S_, .i32⟩
  | .hbm, ⟨63, _⟩ => ⟨S340000, .i32⟩
  | .hbm, ⟨64, _⟩ => ⟨S340000, .i32⟩
  | .hbm, ⟨65, _⟩ => ⟨S340000, .i32⟩
  | .hbm, ⟨66, _⟩ => ⟨S340000x1, .i32⟩
  | .hbm, ⟨67, _⟩ => ⟨S340000x256, .f32⟩
  | .hbm, ⟨68, _⟩ => ⟨S340000x256, .f32⟩
  | .hbm, ⟨69, _⟩ => ⟨S340000x256, .f32⟩
  | .hbm, ⟨70, _⟩ => ⟨S_, .f32⟩
  | .hbm, ⟨71, _⟩ => ⟨S20000x256, .f32⟩
  | .hbm, ⟨72, _⟩ => ⟨S340000x1, .i32⟩
  | .hbm, ⟨73, _⟩ => ⟨S20000x256, .f32⟩
  | .hbm, ⟨74, _⟩ => ⟨S1x256, .f32⟩
  | .hbm, ⟨75, _⟩ => ⟨S1x256, .f32⟩
  | .hbm, ⟨76, _⟩ => ⟨S1x256, .f32⟩
  | .hbm, ⟨77, _⟩ => ⟨S20000x256, .f32⟩
  | .hbm, ⟨78, _⟩ => ⟨S20000x256, .f32⟩
  | .hbm, ⟨79, _⟩ => ⟨S340000x1, .f32⟩
  | .hbm, ⟨80, _⟩ => ⟨S_, .i32⟩
  | .hbm, ⟨81, _⟩ => ⟨S340000, .i32⟩
  | .hbm, ⟨82, _⟩ => ⟨S340000, .i1⟩
  | .hbm, ⟨83, _⟩ => ⟨S_, .i32⟩
  | .hbm, ⟨84, _⟩ => ⟨S340000, .i32⟩
  | .hbm, ⟨85, _⟩ => ⟨S340000, .i32⟩
  | .hbm, ⟨86, _⟩ => ⟨S340000, .i32⟩
  | .hbm, ⟨87, _⟩ => ⟨S340000x1, .i32⟩
  | .hbm, ⟨88, _⟩ => ⟨S340000x256, .f32⟩
  | .hbm, ⟨89, _⟩ => ⟨S340000x256, .f32⟩
  | .hbm, ⟨90, _⟩ => ⟨S340000x256, .f32⟩
  | .hbm, ⟨91, _⟩ => ⟨S_, .f32⟩
  | .hbm, ⟨92, _⟩ => ⟨S20000x256, .f32⟩
  | .hbm, ⟨93, _⟩ => ⟨S340000x1, .i32⟩
  | .hbm, ⟨94, _⟩ => ⟨S20000x256, .f32⟩
  | .hbm, ⟨95, _⟩ => ⟨S1x256, .f32⟩
  | .hbm, ⟨96, _⟩ => ⟨S1x256, .f32⟩
  | .hbm, ⟨97, _⟩ => ⟨S1x256, .f32⟩
  | .hbm, ⟨98, _⟩ => ⟨S20000x256, .f32⟩
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S128x256, .f32⟩
  | .local _ .vmem, ⟨4, _⟩ => ⟨S1x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S256x256, .f32⟩
  | .local _ .vmem, ⟨21, _⟩ => ⟨S2000x256, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S1x256, .f32⟩
  | .local _ .vmem, ⟨28, _⟩ => ⟨S1x256, .f32⟩
  | .local _ .vmem, ⟨29, _⟩ => ⟨S1x256, .f32⟩
  | .local _ .vmem, ⟨30, _⟩ => ⟨S2000x256, .f32⟩
  | .local _ .vmem, ⟨31, _⟩ => ⟨S2000x256, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_4 : Ref sig .tc := ⟨.hbm, 45, rfl⟩
abbrev main_v24 : Ref sig .tc := ⟨.hbm, 46, rfl⟩
abbrev main_v25 : Ref sig .tc := ⟨.hbm, 47, rfl⟩
abbrev main_c_5 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33_0 : Ref sig .tc := ⟨.hbm, 56, rfl⟩
abbrev main_v33_1 : Ref sig .tc := ⟨.hbm, 57, rfl⟩
abbrev main_v34 : Ref sig .tc := ⟨.hbm, 58, rfl⟩
abbrev main_c_6 : Ref sig .tc := ⟨.hbm, 59, rfl⟩
abbrev main_v35 : Ref sig .tc := ⟨.hbm, 60, rfl⟩
abbrev main_v36 : Ref sig .tc := ⟨.hbm, 61, rfl⟩
abbrev main_c_7 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_8 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_c_9 : Ref sig .tc := ⟨.hbm, 80, rfl⟩
abbrev main_v53 : Ref sig .tc := ⟨.hbm, 81, rfl⟩
abbrev main_v54 : Ref sig .tc := ⟨.hbm, 82, rfl⟩
abbrev main_c_10 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_11 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x320000_S1x320000_0_0 : S2x320000.Slices ![0, 0] S1x320000
  shapeCasts_S1x320000_S320000 : S1x320000.ShapeCasts S320000
  concatenates_S320000_S20000_S340000_d0 : Shape.Concatenates [S320000, S20000] S340000 0
  slices_S2x320000_S1x320000_1_0 : S2x320000.Slices ![1, 0] S1x320000
  bcast_S_S20000 : S_.BroadcastsInDim S20000 (![] : Fin 0 → Fin S20000.rank)
  bcast_S340000_S340000x1_0 : S340000.BroadcastsInDim S340000x1 (![0] : Fin 1 → Fin S340000x1.rank)
  bcast_S_S340000 : S_.BroadcastsInDim S340000 (![] : Fin 0 → Fin S340000.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S2000x256_S2000x256_0_0 : ∀ a, (![0, 0] : Fin 2 → Nat) a + S2000x256.size a ≤ S2000x256.size a
  h_S2000x256 : 0 < S2000x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  bcast_S340000x1_S340000x256_0_1 : S340000x1.BroadcastsInDim S340000x256 (![0, 1] : Fin 2 → Fin S340000x256.rank)
  bcast_S_S20000x256 : S_.BroadcastsInDim S20000x256 (![] : Fin 0 → Fin S20000x256.rank)
  shapeCasts_S2000x256_S2000x256 : S2000x256.ShapeCasts S2000x256
  reduces_S2000x256_S2000 : S2000x256.Reduces [1] S2000
  shapeCasts_S2000_S2000x1 : S2000.ShapeCasts S2000x1
  broadcasts_S2000x1_S2000x256 : S2000x1.Broadcasts S2000x256
  inb_S256x256_S256x256_0_0 : ∀ a, (![0, 0] : Fin 2 → Nat) a + S256x256.size a ≤ S256x256.size a
  h_S256x256 : 0 < S256x256.numel
  scatter_S20000_S340000x1_S340000_n_0_0_1_wf : ScatterDims.WF S20000 S340000x1 S340000 [] [0] [0] 1
  gather_S20000_S340000x1_S340000_n_0_n_n_0_1_1_wf : GatherDims.WF S20000 S340000x1 S340000 [] [0] [] [0] [] 1 ![1]
  dot_S2000x128_S128x256_S2000x256_1_0_0_1_n_n_wf : DotDims.WF S2000x128 S128x256 S2000x256 [1] [0] [0] [1] [] []
  gather_S20000x256_S340000x1_S340000x256_1_0_n_n_0_1_1256_wf : GatherDims.WF S20000x256 S340000x1 S340000x256 [1] [0] [] [0] [] 1 ![1, 256]
  scatter_S20000x256_S340000x1_S340000x256_1_0_0_1_wf : ScatterDims.WF S20000x256 S340000x1 S340000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S20000x128.size a
  hwx0_0 : ∀ i : grid0.Coords, EltTy.bits .f32 = 32 ∨ (Rect.block (s := S20000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x256.size a ≤ S20000x256.size a
  hwx0_4 : ∀ i : grid0.Coords, EltTy.bits .f32 = 32 ∨ (Rect.block (s := S20000x256) S2000x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S20000x256.size a
  hwx0_5 : ∀ i : grid0.Coords, EltTy.bits .f32 = 32 ∨ (Rect.block (s := S20000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S20000x256.size a
  hwx1_0 : ∀ i : grid1.Coords, EltTy.bits .f32 = 32 ∨ (Rect.block (s := S20000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S20000x256.size a
  hwx1_1 : ∀ i : grid1.Coords, EltTy.bits .f32 = 32 ∨ (Rect.block (s := S20000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S20000x256.size a
  hwx1_5 : ∀ i : grid1.Coords, EltTy.bits .f32 = 32 ∨ (Rect.block (s := S20000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S20000x256.size a
  hwx2_0 : ∀ i : grid2.Coords, EltTy.bits .f32 = 32 ∨ (Rect.block (s := S20000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S20000x256.size a
  hwx2_2 : ∀ i : grid2.Coords, EltTy.bits .f32 = 32 ∨ (Rect.block (s := S20000x256) S2000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S20000x256.size a
  hwx3_0 : ∀ i : grid3.Coords, EltTy.bits .f32 = 32 ∨ (Rect.block (s := S20000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S20000x256.size a
  hwx3_1 : ∀ i : grid3.Coords, EltTy.bits .f32 = 32 ∨ (Rect.block (s := S20000x256) S2000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x256.size a ≤ S20000x256.size a
  hwx3_5 : ∀ i : grid3.Coords, EltTy.bits .f32 = 32 ∨ (Rect.block (s := S20000x256) S2000x256.size (cc3_transform_5 i) (hinb3_5 i)).WholeWords (EltTy.packing .f32)

variable [Facts₀]

def scatter_S20000_S340000x1_S340000_n_0_0_1 : ScatterDims S20000 S340000x1 S340000 where
  updateWindowDims := []
  insertedWindowDims := [0]
  scatterDimsToOperandDims := [0]
  indexVectorDim := 1
  wf := scatter_S20000_S340000x1_S340000_n_0_0_1_wf
def gather_S20000_S340000x1_S340000_n_0_n_n_0_1_1 : GatherDims S20000 S340000x1 S340000 where
  offsetDims := []
  collapsedSliceDims := [0]
  operandBatchingDims := []
  startIndicesBatchingDims := []
  startIndexMap := [0]
  indexVectorDim := 1
  sliceSizes := ![1]
  wf := gather_S20000_S340000x1_S340000_n_0_n_n_0_1_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S20000x256_S340000x1_S340000x256_1_0_n_n_0_1_1256 : GatherDims S20000x256 S340000x1 S340000x256 where
  offsetDims := [1]
  collapsedSliceDims := [0]
  operandBatchingDims := []
  startIndicesBatchingDims := []
  startIndexMap := [0]
  indexVectorDim := 1
  sliceSizes := ![1, 256]
  wf := gather_S20000x256_S340000x1_S340000x256_1_0_n_n_0_1_1256_wf
def scatter_S20000x256_S340000x1_S340000x256_1_0_0_1 : ScatterDims S20000x256 S340000x1 S340000x256 where
  updateWindowDims := [1]
  insertedWindowDims := [0]
  scatterDimsToOperandDims := [0]
  indexVectorDim := 1
  wf := scatter_S20000x256_S340000x1_S340000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v33_0) S2000x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v33_1) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v33_1) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v47) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v49) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v50) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v50) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S2000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v50) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v64) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v65) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v66) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v67) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v68) S2000x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S20000x128 : Shape := ⟨2, ![20000, 128]⟩
abbrev S2x320000 : Shape := ⟨2, ![2, 320000]⟩
abbrev S320000 : Shape := ⟨1, ![320000]⟩
abbrev S128x256 : Shape := ⟨2, ![128, 256]⟩
abbrev S256 : Shape := ⟨1, ![256]⟩
abbrev S256x256 : Shape := ⟨2, ![256, 256]⟩
abbrev S20000 : Shape := ⟨1, ![20000]⟩
abbrev S1x320000 : Shape := ⟨2, ![1, 320000]⟩
abbrev S340000 : Shape := ⟨1, ![340000]⟩
abbrev S_ : Shape := ⟨0, ![]⟩
abbrev S20000x256 : Shape := ⟨2, ![20000, 256]⟩
abbrev S340000x1 : Shape := ⟨2, ![340000, 1]⟩
abbrev S340000x256 : Shape := ⟨2, ![340000, 256]⟩
abbrev S1x256 : Shape := ⟨2, ![1, 256]⟩
abbrev S20000x1 : Shape := ⟨2, ![20000, 1]⟩

abbrev nBuf : Space → Nat
  | .hbm => 194
  | .vmem => 0
  | .smem => 0
  | _ => 0

abbrev hbmTy0_0 (i : Nat) : BufTy := match i % 128 with
  | 0 => ⟨S20000x128, .f32⟩
  | 1 => ⟨S2x320000, .i32⟩
  | 2 => ⟨S320000, .f32⟩
  | 3 => ⟨S128x256, .f32⟩
  | 4 => ⟨S256, .f32⟩
  | 5 => ⟨S256x256, .f32⟩
  | 6 => ⟨S256, .f32⟩
  | 7 => ⟨S128x256, .f32⟩
  | 8 => ⟨S256, .f32⟩
  | 9 => ⟨S256, .f32⟩
  | 10 => ⟨S256, .f32⟩
  | 11 => ⟨S256, .f32⟩
  | 12 => ⟨S256, .f32⟩
  | 13 => ⟨S20000, .i32⟩
  | 14 => ⟨S1x320000, .i32⟩
  | 15 => ⟨S320000, .i32⟩
  | 16 => ⟨S340000, .i32⟩
  | 17 => ⟨S1x320000, .i32⟩
  | 18 => ⟨S320000, .i32⟩
  | 19 => ⟨S340000, .i32⟩
  | 20 => ⟨S_, .f32⟩
  | 21 => ⟨S20000, .f32⟩
  | 22 => ⟨S340000, .f32⟩
  | 23 => ⟨S20000x256, .f32⟩
  | 24 => ⟨S_, .f32⟩
  | 25 => ⟨S20000, .f32⟩
  | 26 => ⟨S340000x1, .i32⟩
  | 27 => ⟨S20000, .f32⟩
  | 28 => ⟨S_, .f32⟩
  | 29 => ⟨S20000, .f32⟩
  | 30 => ⟨S20000, .i1⟩
  | 31 => ⟨S20000, .f32⟩
  | 32 => ⟨S_, .f32⟩
  | 33 => ⟨S_, .f32⟩
  | 34 => ⟨S20000, .f32⟩
  | 35 => ⟨S20000, .f32⟩
  | 36 => ⟨S_, .i32⟩
  | 37 => ⟨S340000, .i32⟩
  | 38 => ⟨S340000, .i1⟩
  | 39 => ⟨S_, .i32⟩
  | 40 => ⟨S340000, .i32⟩
  | 41 => ⟨S340000, .i32⟩
  | 42 => ⟨S340000, .i32⟩
  | 43 => ⟨S340000x1, .i32⟩
  | 44 => ⟨S340000, .f32⟩
  | 45 => ⟨S340000, .f32⟩
  | 46 => ⟨S_, .i32⟩
  | 47 => ⟨S340000, .i32⟩
  | 48 => ⟨S340000, .i1⟩
  | 49 => ⟨S_, .i32⟩
  | 50 => ⟨S340000, .i32⟩
  | 51 => ⟨S340000, .i32⟩
  | 52 => ⟨S340000, .i32⟩
  | 53 => ⟨S340000x1, .i32⟩
  | 54 => ⟨S340000, .f32⟩
  | 55 => ⟨S340000, .f32⟩
  | 56 => ⟨S340000x1, .f32⟩
  | 57 => ⟨S_, .i32⟩
  | 58 => ⟨S340000, .i32⟩
  | 59 => ⟨S340000, .i1⟩
  | 60 => ⟨S_, .i32⟩
  | 61 => ⟨S340000, .i32⟩
  | 62 => ⟨S340000, .i32⟩
  | 63 => ⟨S340000, .i32⟩
  | 64 => ⟨S340000x1, .i32⟩
  | 65 => ⟨S340000x256, .f32⟩
  | 66 => ⟨S340000x256, .f32⟩
  | 67 => ⟨S340000x256, .f32⟩
  | 68 => ⟨S_, .f32⟩
  | 69 => ⟨S20000x256, .f32⟩
  | 70 => ⟨S340000x1, .i32⟩
  | 71 => ⟨S20000x256, .f32⟩
  | 72 => ⟨S1x256, .f32⟩
  | 73 => ⟨S20000x256, .f32⟩
  | 74 => ⟨S20000x256, .f32⟩
  | 75 => ⟨S_, .f32⟩
  | 76 => ⟨S20000x256, .f32⟩
  | 77 => ⟨S20000x256, .f32⟩
  | 78 => ⟨S20000x256, .f32⟩
  | 79 => ⟨S1x256, .f32⟩
  | 80 => ⟨S20000x256, .f32⟩
  | 81 => ⟨S20000x256, .f32⟩
  | 82 => ⟨S20000x256, .f32⟩
  | 83 => ⟨S_, .f32⟩
  | 84 => ⟨S20000, .f32⟩
  | 85 => ⟨S20000x1, .f32⟩
  | 86 => ⟨S_, .f32⟩
  | 87 => ⟨S20000x1, .f32⟩
  | 88 => ⟨S20000x1, .f32⟩
  | 89 => ⟨S20000x256, .f32⟩
  | 90 => ⟨S20000x256, .f32⟩
  | 91 => ⟨S20000x256, .f32⟩
  | 92 => ⟨S_, .f32⟩
  | 93 => ⟨S20000, .f32⟩
  | 94 => ⟨S20000x1, .f32⟩
  | 95 => ⟨S_, .f32⟩
  | 96 => ⟨S20000x1, .f32⟩
  | 97 => ⟨S20000x1, .f32⟩
  | 98 => ⟨S20000x256, .f32⟩
  | 99 => ⟨S20000x256, .f32⟩
  | 100 => ⟨S_, .f32⟩
  | 101 => ⟨S20000x1, .f32⟩
  | 102 => ⟨S20000x1, .f32⟩
  | 103 => ⟨S20000x1, .f32⟩
  | 104 => ⟨S20000x256, .f32⟩
  | 105 => ⟨S20000x256, .f32⟩
  | 106 => ⟨S1x256, .f32⟩
  | 107 => ⟨S20000x256, .f32⟩
  | 108 => ⟨S20000x256, .f32⟩
  | 109 => ⟨S1x256, .f32⟩
  | 110 => ⟨S20000x256, .f32⟩
  | 111 => ⟨S20000x256, .f32⟩
  | 112 => ⟨S20000x256, .f32⟩
  | 113 => ⟨S_, .f32⟩
  | 114 => ⟨S20000, .f32⟩
  | 115 => ⟨S340000x1, .i32⟩
  | 116 => ⟨S20000, .f32⟩
  | 117 => ⟨S_, .f32⟩
  | 118 => ⟨S20000, .f32⟩
  | 119 => ⟨S20000, .i1⟩
  | 120 => ⟨S20000, .f32⟩
  | 121 => ⟨S_, .f32⟩
  | 122 => ⟨S_, .f32⟩
  | 123 => ⟨S20000, .f32⟩
  | 124 => ⟨S20000, .f32⟩
  | 125 => ⟨S_, .i32⟩
  | 126 => ⟨S340000, .i32⟩
  | 127 => ⟨S340000, .i1⟩
  | _ => ⟨S20000x128, .f32⟩

abbrev hbmTy0_1 (i : Nat) : BufTy := match i % 128 with
  | 0 => ⟨S_, .i32⟩
  | 1 => ⟨S340000, .i32⟩
  | 2 => ⟨S340000, .i32⟩
  | 3 => ⟨S340000, .i32⟩
  | 4 => ⟨S340000x1, .i32⟩
  | 5 => ⟨S340000, .f32⟩
  | 6 => ⟨S340000, .f32⟩
  | 7 => ⟨S_, .i32⟩
  | 8 => ⟨S340000, .i32⟩
  | 9 => ⟨S340000, .i1⟩
  | 10 => ⟨S_, .i32⟩
  | 11 => ⟨S340000, .i32⟩
  | 12 => ⟨S340000, .i32⟩
  | 13 => ⟨S340000, .i32⟩
  | 14 => ⟨S340000x1, .i32⟩
  | 15 => ⟨S340000, .f32⟩
  | 16 => ⟨S340000, .f32⟩
  | 17 => ⟨S340000x1, .f32⟩
  | 18 => ⟨S_, .i32⟩
  | 19 => ⟨S340000, .i32⟩
  | 20 => ⟨S340000, .i1⟩
  | 21 => ⟨S_, .i32⟩
  | 22 => ⟨S340000, .i32⟩
  | 23 => ⟨S340000, .i32⟩
  | 24 => ⟨S340000, .i32⟩
  | 25 => ⟨S340000x1, .i32⟩
  | 26 => ⟨S340000x256, .f32⟩
  | 27 => ⟨S340000x256, .f32⟩
  | 28 => ⟨S340000x256, .f32⟩
  | 29 => ⟨S_, .f32⟩
  | 30 => ⟨S20000x256, .f32⟩
  | 31 => ⟨S340000x1, .i32⟩
  | 32 => ⟨S20000x256, .f32⟩
  | 33 => ⟨S1x256, .f32⟩
  | 34 => ⟨S20000x256, .f32⟩
  | 35 => ⟨S20000x256, .f32⟩
  | 36 => ⟨S20000x256, .f32⟩
  | 37 => ⟨S_, .f32⟩
  | 38 => ⟨S20000, .f32⟩
  | 39 => ⟨S20000x1, .f32⟩
  | 40 => ⟨S_, .f32⟩
  | 41 => ⟨S20000x1, .f32⟩
  | 42 => ⟨S20000x1, .f32⟩
  | 43 => ⟨S20000x256, .f32⟩
  | 44 => ⟨S20000x256, .f32⟩
  | 45 => ⟨S20000x256, .f32⟩
  | 46 => ⟨S_, .f32⟩
  | 47 => ⟨S20000, .f32⟩
  | 48 => ⟨S20000x1, .f32⟩
  | 49 => ⟨S_, .f32⟩
  | 50 => ⟨S20000x1, .f32⟩
  | 51 => ⟨S20000x1, .f32⟩
  | 52 => ⟨S20000x256, .f32⟩
  | 53 => ⟨S20000x256, .f32⟩
  | 54 => ⟨S_, .f32⟩
  | 55 => ⟨S20000x1, .f32⟩
  | 56 => ⟨S20000x1, .f32⟩
  | 57 => ⟨S20000x1, .f32⟩
  | 58 => ⟨S20000x256, .f32⟩
  | 59 => ⟨S20000x256, .f32⟩
  | 60 => ⟨S1x256, .f32⟩
  | 61 => ⟨S20000x256, .f32⟩
  | 62 => ⟨S20000x256, .f32⟩
  | 63 => ⟨S1x256, .f32⟩
  | 64 => ⟨S20000x256, .f32⟩
  | 65 => ⟨S20000x256, .f32⟩
  | _ => ⟨S20000x128, .f32⟩

abbrev hbmTy (i : Nat) : BufTy := match i / 128 with
  | 0 => hbmTy0_0 i
  | 1 => hbmTy0_1 i
  | _ => ⟨S20000x128, .f32⟩

abbrev bufTy : (tb : Table) → Fin (tcTables nBuf tb) → BufTy
  | .hbm, ⟨i, _⟩ => hbmTy i
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v16 : Ref sig .tc := ⟨.hbm, 35, rfl⟩
abbrev main_c : Ref sig .tc := ⟨.hbm, 36, rfl⟩
abbrev main_v17 : Ref sig .tc := ⟨.hbm, 37, rfl⟩
abbrev main_v18 : Ref sig .tc := ⟨.hbm, 38, rfl⟩
abbrev main_c_3 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_4 : Ref sig .tc := ⟨.hbm, 46, rfl⟩
abbrev main_v25 : Ref sig .tc := ⟨.hbm, 47, rfl⟩
abbrev main_v26 : Ref sig .tc := ⟨.hbm, 48, rfl⟩
abbrev main_c_5 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_6 : Ref sig .tc := ⟨.hbm, 57, rfl⟩
abbrev main_v34 : Ref sig .tc := ⟨.hbm, 58, rfl⟩
abbrev main_v35 : Ref sig .tc := ⟨.hbm, 59, rfl⟩
abbrev main_c_7 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_8 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_call1_cst : Ref sig .tc := ⟨.hbm, 75, rfl⟩
abbrev main_call1_v0 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_9 : Ref sig .tc := ⟨.hbm, 83, rfl⟩
abbrev main_v55 : Ref sig .tc := ⟨.hbm, 84, rfl⟩
abbrev main_v56 : Ref sig .tc := ⟨.hbm, 85, rfl⟩
abbrev main_cst_10 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_11 : Ref sig .tc := ⟨.hbm, 92, rfl⟩
abbrev main_v62 : Ref sig .tc := ⟨.hbm, 93, rfl⟩
abbrev main_v63 : Ref sig .tc := ⟨.hbm, 94, rfl⟩
abbrev main_cst_12 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_13 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_14 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_15 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_16 : Ref sig .tc := ⟨.hbm, 121, rfl⟩
abbrev main_call2_v0 : Ref sig .tc := ⟨.hbm, 122, rfl⟩
abbrev main_call2_v1 : Ref sig .tc := ⟨.hbm, 123, rfl⟩
abbrev main_v86 : Ref sig .tc := ⟨.hbm, 124, rfl⟩
abbrev main_c_17 : Ref sig .tc := ⟨.hbm, 125, rfl⟩
abbrev main_v87 : Ref sig .tc := ⟨.hbm, 126, rfl⟩
abbrev main_v88 : Ref sig .tc := ⟨.hbm, 127, rfl⟩
abbrev main_c_18 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_c_19 : Ref sig .tc := ⟨.hbm, 135, rfl⟩
abbrev main_v95 : Ref sig .tc := ⟨.hbm, 136, rfl⟩
abbrev main_v96 : Ref sig .tc := ⟨.hbm, 137, rfl⟩
abbrev main_c_20 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_c_21 : Ref sig .tc := ⟨.hbm, 146, rfl⟩
abbrev main_v104 : Ref sig .tc := ⟨.hbm, 147, rfl⟩
abbrev main_v105 : Ref sig .tc := ⟨.hbm, 148, rfl⟩
abbrev main_c_22 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_cst_23 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_cst_24 : Ref sig .tc := ⟨.hbm, 165, rfl⟩
abbrev main_v120 : Ref sig .tc := ⟨.hbm, 166, rfl⟩
abbrev main_v121 : Ref sig .tc := ⟨.hbm, 167, rfl⟩
abbrev main_cst_25 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_cst_26 : Ref sig .tc := ⟨.hbm, 174, rfl⟩
abbrev main_v127 : Ref sig .tc := ⟨.hbm, 175, rfl⟩
abbrev main_v128 : Ref sig .tc := ⟨.hbm, 176, rfl⟩
abbrev main_cst_27 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_cst_28 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  concatenates_S320000_S20000_S340000_d0 : Shape.Concatenates [S320000, S20000] S340000 0
  slices_S2x320000_S1x320000_1_0 : S2x320000.Slices ![1, 0] S1x320000
  bcast_S_S20000 : S_.BroadcastsInDim S20000 (![] : Fin 0 → Fin S20000.rank)
  bcast_S340000_S340000x1_0 : S340000.BroadcastsInDim S340000x1 (![0] : Fin 1 → Fin S340000x1.rank)
  bcast_S_S340000 : S_.BroadcastsInDim S340000 (![] : Fin 0 → Fin S340000.rank)
  bcast_S340000x1_S340000x256_0_1 : S340000x1.BroadcastsInDim S340000x256 (![0, 1] : Fin 2 → Fin S340000x256.rank)
  bcast_S_S20000x256 : S_.BroadcastsInDim S20000x256 (![] : Fin 0 → Fin S20000x256.rank)
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  reducesTo_S20000x256_S20000_d1 : S20000x256.ReducesTo [1] S20000
  h_S_ : 0 < S_.numel
  bcast_S20000_S20000x1_0 : S20000.BroadcastsInDim S20000x1 (![0] : Fin 1 → Fin S20000x1.rank)
  bcast_S_S20000x1 : S_.BroadcastsInDim S20000x1 (![] : Fin 0 → Fin S20000x1.rank)
  bcast_S20000x1_S20000x256_0_1 : S20000x1.BroadcastsInDim S20000x256 (![0, 1] : Fin 2 → Fin S20000x256.rank)
  dot_S20000x128_S128x256_S20000x256_1_0_0_1_n_n_wf : DotDims.WF S20000x128 S128x256 S20000x256 [1] [0] [0] [1] [] []
  scatter_S20000_S340000x1_S340000_n_0_0_1_wf : ScatterDims.WF S20000 S340000x1 S340000 [] [0] [0] 1
  gather_S20000_S340000x1_S340000_n_0_n_n_0_1_1_wf : GatherDims.WF S20000 S340000x1 S340000 [] [0] [] [0] [] 1 ![1]
  gather_S20000x256_S340000x1_S340000x256_1_0_n_n_0_1_1256_wf : GatherDims.WF S20000x256 S340000x1 S340000x256 [1] [0] [] [0] [] 1 ![1, 256]
  scatter_S20000x256_S340000x1_S340000x256_1_0_0_1_wf : ScatterDims.WF S20000x256 S340000x1 S340000x256 [1] [0] [0] 1
  dot_S20000x256_S256x256_S20000x256_1_0_0_1_n_n_wf : DotDims.WF S20000x256 S256x256 S20000x256 [1] [0] [0] [1] [] []

variable [Facts₀]

def dot_S20000x128_S128x256_S20000x256_1_0_0_1_n_n : DotDims S20000x128 S128x256 S20000x256 where
  lhsContracting := [1]
  rhsContracting := [0]
  lhsNonContracting := [0]
  rhsNonContracting := [1]
  lhsBatch := []
  rhsBatch := []
  wf := dot_S20000x128_S128x256_S20000x256_1_0_0_1_n_n_wf
def scatter_S20000_S340000x1_S340000_n_0_0_1 : ScatterDims S20000 S340000x1 S340000 where
  updateWindowDims := []
  insertedWindowDims := [0]
  scatterDimsToOperandDims := [0]
  indexVectorDim := 1
  wf := scatter_S20000_S340000x1_S340000_n_0_0_1_wf
def gather_S20000_S340000x1_S340000_n_0_n_n_0_1_1 : GatherDims S20000 S340000x1 S340000 where
  offsetDims := []
  collapsedSliceDims := [0]
  operandBatchingDims := []
  startIndicesBatchingDims := []
  startIndexMap := [0]
  indexVectorDim := 1
  sliceSizes := ![1]
  wf := gather_S20000_S340000x1_S340000_n_0_n_n_0_1_1_wf
def gather_S20000x256_S340000x1_S340000x256_1_0_n_n_0_1_1256 : GatherDims S20000x256 S340000x1 S340000x256 where
  offsetDims := [1]
  collapsedSliceDims := [0]
  operandBatchingDims := []
  startIndicesBatchingDims := []
  startIndexMap := [0]
  indexVectorDim := 1
  sliceSizes := ![1, 256]
  wf := gather_S20000x256_S340000x1_S340000x256_1_0_n_n_0_1_1256_wf
def scatter_S20000x256_S340000x1_S340000x256_1_0_0_1 : ScatterDims S20000x256 S340000x1 S340000x256 where
  updateWindowDims := [1]
  insertedWindowDims := [0]
  scatterDimsToOperandDims := [0]
  indexVectorDim := 1
  wf := scatter_S20000x256_S340000x1_S340000x256_1_0_0_1_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf

class Facts : Prop extends Facts₀ where

variable [Facts]
-- ==== Proof.KernelRun.lean ====
/-
  The idealized kernel's run with its result named. The program is four kernel launches among stretches of host
  operations; the buffer contents at each boundary are a fold from the launch memory (host stretches apply their
  operations, a launch leaves its output arrays at what its grid points wrote back). Every execution terminates with
  each unscoped buffer at the last boundary's contents; here the result buffer is kept in the post beside the
  arguments, so that its contents can be read off the fold.
-/
import proofs.«175884_j32375463477769_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and the argument arrays as launched. -/
theorem run : θ_run defs (onTc (τ := τ) (main (F := F))) ⟨m, fun _ => 0, ρ⟩ (fun r => ∀ c : Dev nD,
      r.2.mem ((c.tc : Thread nD τ).loc main_v68) = W9 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v68 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c)⟩)

end Cert.KernelIdeal.RunValue

end
-- ==== Proof.Spec.lean ====
/-
  The mathematics both programs compute, stated once over the extended reals with literal extents and no program in
  sight: a matrix product as a sum over the contracted axis, the two ways a graph-convolution hop combines the
  residual stream with the aggregated messages, and the row normalisation (mean and variance over the 256 features
  of a row, then scale and shift). Everything is indexed by explicit coordinates, so a row of a 2000-row block and the
  same row of the 20000-row array are the same sum.
-/
import Idealize.ShloMosaic.PureOps.Ideal
import Idealize.ShloMosaic.Lib.ValueIdx

noncomputable section

namespace Cert.Gcn

open Idealize.ShloMosaic Idealize.ShloMosaic.ValueIdx

/-- An `r × c` matrix of extended reals. -/
abbrev Mat (r c : Nat) : Type := (⟨2, ![r, c]⟩ : Shape).Idx → EReal
/-- A vector of `n` extended reals. -/
abbrev Row (n : Nat) : Type := (⟨1, ![n]⟩ : Shape).Idx → EReal

/-- Entry `(r, c)` of the product `x · w`: the sum over the contracted axis of the products. -/
def mmAt {n K : Nat} (x : Mat n K) (w : Mat K 256) (r : Fin n) (c : Fin 256) : EReal :=
  ∑ k : Fin K, x (ix2 r k) * w (ix2 k c)

/-- The product as a matrix. -/
def mm {n K : Nat} (x : Mat n K) (w : Mat K 256) : Mat n 256 := fun i => mmAt x w (i 0) (i 1)

/-- An entry of the product depends on one row of the left factor and one column of the right factor only. -/
theorem mmAt_congr {n n' K : Nat} (x : Mat n K) (x' : Mat n' K) (w w' : Mat K 256) (r : Fin n) (r' : Fin n') (c c' : Fin 256)
    (hx : ∀ k : Fin K, x (ix2 r k) = x' (ix2 r' k)) (hw : ∀ k : Fin K, w (ix2 k c) = w' (ix2 k c')) :
    mmAt x w r c = mmAt x' w' r' c' := by
  unfold mmAt
  exact Finset.sum_congr rfl fun k _ => by rw [hx k, hw k]

/-- The float words of 0, of 256 and of the variance floor, read as extended reals (never evaluated: the same words
    stand on both sides). -/
abbrev zeroW : EReal := Ideal.ofBits .f32 0x00000000#32
abbrev c256 : EReal := Ideal.ofBits .f32 0x43800000#32
abbrev epsW : EReal := Ideal.ofBits .f32 0x3727C5AC#32

/-- The mean of row `r`: the sum of its 256 entries over 256. -/
def rowMean {n : Nat} (z : Mat n 256) (r : Fin n) : EReal :=
  Ideal.div (∑ k : Fin 256, z (ix2 r k)) c256

/-- The variance of row `r`: the mean of the squared deviations from the row's mean. -/
def rowVar {n : Nat} (z : Mat n 256) (r : Fin n) : EReal :=
  Ideal.div (∑ k : Fin 256, (z (ix2 r k) - rowMean z r) * (z (ix2 r k) - rowMean z r)) c256

/-- The normalised entry `(r, c)`: the deviation from the row's mean times the reciprocal square root of the
    row's variance plus the floor, scaled by `g c` and shifted by `b c`. -/
def lnAt {n : Nat} (z : Mat n 256) (g b : Fin 256 → EReal) (r : Fin n) (c : Fin 256) : EReal :=
  (z (ix2 r c) - rowMean z r) * Ideal.rsqrt (rowVar z r + epsW) * g c + b c

/-- The row normalisation of a matrix, with scale and shift vectors. -/
def ln {n : Nat} (z : Mat n 256) (g b : Row 256) : Mat n 256 :=
  fun i => lnAt z (fun c => g (ix1 c)) (fun c => b (ix1 c)) (i 0) (i 1)

theorem rowMean_congr {n n' : Nat} (z : Mat n 256) (z' : Mat n' 256) (r : Fin n) (r' : Fin n')
    (h : ∀ k : Fin 256, z (ix2 r k) = z' (ix2 r' k)) : rowMean z r = rowMean z' r' := by
  unfold rowMean
  exact congrArg (Ideal.div · c256) (Finset.sum_congr rfl fun k _ => h k)

theorem rowVar_congr {n n' : Nat} (z : Mat n 256) (z' : Mat n' 256) (r : Fin n) (r' : Fin n')
    (h : ∀ k : Fin 256, z (ix2 r k) = z' (ix2 r' k)) : rowVar z r = rowVar z' r' := by
  unfold rowVar
  rw [rowMean_congr z z' r r' h]
  exact congrArg (Ideal.div · c256) (Finset.sum_congr rfl fun k _ => by rw [h k])

/-- A normalised entry depends on its own row only: equal rows give equal entries, whatever the two matrices'
    heights. -/
theorem lnAt_congr {n n' : Nat} (z : Mat n 256) (z' : Mat n' 256) (g b : Fin 256 → EReal) (r : Fin n) (r' : Fin n')
    (c : Fin 256) (h : ∀ k : Fin 256, z (ix2 r k) = z' (ix2 r' k)) : lnAt z g b r c = lnAt z' g b r' c := by
  unfold lnAt
  rw [rowMean_congr z z' r r' h, rowVar_congr z z' r r' h, h c]

/-- First hop's input to the normalisation: the residual projection plus the rectified (aggregated messages plus
    bias). -/
def hopRelu {n : Nat} (base agg : Mat n 256) (bias : Fin 256 → EReal) : Mat n 256 :=
  fun i => base i + max (agg i + bias (i 1)) zeroW

/-- Second hop's input to the normalisation: the stream plus (aggregated messages plus bias), not rectified. -/
def hopPlain {n : Nat} (base agg : Mat n 256) (bias : Fin 256 → EReal) : Mat n 256 :=
  fun i => base i + (agg i + bias (i 1))

/-- A matrix plus a row vector broadcast down the rows. -/
def addRow {n : Nat} (y : Mat n 256) (bias : Fin 256 → EReal) : Mat n 256 :=
  fun i => y i + bias (i 1)

end Cert.Gcn

end
-- ==== Proof.Payloads.lean ====
/-
  Each kernel body's arithmetic, read at one entry (p, q) of the block it stores: the two projections as sums over the
  contracted axis, and the row normalisation of a 2000-row block.
-/
import proofs.«175884_j32375463477769_1_alg».proof.Proof.Gen.KernelIdeal.Skeleton
import proofs.«175884_j32375463477769_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BodyValue

open Cert.KernelIdeal Cert.KernelIdeal.Gen Idealize.ShloMosaic Idealize.ShloMosaic.ValueIdx

/-! ## The block products -/

/-- Coordinate 0 of the left factor's index is the output row. -/
theorem lhs128_0 (i : S2000x256.Idx) (k : dot_S2000x128_S128x256_S2000x256_1_0_0_1_n_n.contr.Idx) :
    (dot_S2000x128_S128x256_S2000x256_1_0_0_1_n_n.lhsIdx i k 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
/-- Coordinate 1 of the right factor's index is the output column. -/
theorem rhs128_1 (i : S2000x256.Idx) (k : dot_S2000x128_S128x256_S2000x256_1_0_0_1_n_n.contr.Idx) :
    (dot_S2000x128_S128x256_S2000x256_1_0_0_1_n_n.rhsIdx i k 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- The block product into a zero accumulator, read at entry `(p, q)`: the sum over the contracted axis of the
    products of row `p` of the left factor with column `q` of the right factor. -/
theorem matmul128_apply {φ₁ φ₂ : FTy} (a : FVec Ideal S2000x128 φ₁) (b : FVec Ideal S128x256 φ₂) (p : Fin 2000) (q : Fin 256) :
    FloatOps.matmul dot_S2000x128_S128x256_S2000x256_1_0_0_1_n_n none a b (constant S2000x256 .f32 0x00000000#32) (ix2 p q)
      = ∑ k : Fin 128, a (ix2 p k) * b (ix2 k q) := by
  rw [Ideal.matmul_constant_zero_apply, ← Equiv.sum_comp (ValueIdx.contrEquiv1 dot_S2000x128_S128x256_S2000x256_1_0_0_1_n_n 128 rfl rfl).symm]
  refine Finset.sum_congr rfl fun k _ => ?_
  have hk := ValueIdx.contrEquiv1_symm_val dot_S2000x128_S128x256_S2000x256_1_0_0_1_n_n 128 rfl rfl k
  have el : dot_S2000x128_S128x256_S2000x256_1_0_0_1_n_n.lhsIdx (ix2 p q) ((ValueIdx.contrEquiv1 dot_S2000x128_S128x256_S2000x256_1_0_0_1_n_n 128 rfl rfl).symm k) = ix2 p k := funext fun x => Fin.ext (by
    match x with
    | ⟨0, _⟩ => exact lhs128_0 _ _
    | ⟨1, _⟩ => exact (dot_S2000x128_S128x256_S2000x256_1_0_0_1_n_n.lhsIdx_val_of_single rfl _ _).trans hk)
  have er : dot_S2000x128_S128x256_S2000x256_1_0_0_1_n_n.rhsIdx (ix2 p q) ((ValueIdx.contrEquiv1 dot_S2000x128_S128x256_S2000x256_1_0_0_1_n_n 128 rfl rfl).symm k) = ix2 k q := funext fun x => Fin.ext (by
    match x with
    | ⟨0, _⟩ => exact (dot_S2000x128_S128x256_S2000x256_1_0_0_1_n_n.rhsIdx_val_of_single rfl _ _).trans hk
    | ⟨1, _⟩ => exact rhs128_1 _ _)
  rw [el, er]

/-- Coordinate 0 of the left factor's index is the output row. -/
theorem lhs256_0 (i : S2000x256.Idx) (k : dot_S2000x256_S256x256_S2000x256_1_0_0_1_n_n.contr.Idx) :
    (dot_S2000x256_S256x256_S2000x256_1_0_0_1_n_n.lhsIdx i k 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
/-- Coordinate 1 of the right factor's index is the output column. -/
theorem rhs256_1 (i : S2000x256.Idx) (k : dot_S2000x256_S256x256_S2000x256_1_0_0_1_n_n.contr.Idx) :
    (dot_S2000x256_S256x256_S2000x256_1_0_0_1_n_n.rhsIdx i k 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The block product into a zero accumulator, read at entry `(p, q)`: the sum over the contracted axis of the
    products of row `p` of the left factor with column `q` of the right factor. -/
theorem matmul256_apply {φ₁ φ₂ : FTy} (a : FVec Ideal S2000x256 φ₁) (b : FVec Ideal S256x256 φ₂) (p : Fin 2000) (q : Fin 256) :
    FloatOps.matmul dot_S2000x256_S256x256_S2000x256_1_0_0_1_n_n none a b (constant S2000x256 .f32 0x00000000#32) (ix2 p q)
      = ∑ k : Fin 256, a (ix2 p k) * b (ix2 k q) := by
  rw [Ideal.matmul_constant_zero_apply, ← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx (ix2 p q) ((ValueIdx.contrEquiv1 dot_S2000x256_S256x256_S2000x256_1_0_0_1_n_n 256 rfl rfl).symm k) = ix2 p k := funext fun x => Fin.ext (by
    match x with
    | ⟨0, _⟩ => exact lhs256_0 _ _
    | ⟨1, _⟩ => exact (dot_S2000x256_S256x256_S2000x256_1_0_0_1_n_n.lhsIdx_val_of_single rfl _ _).trans hk)
  have er : dot_S2000x256_S256x256_S2000x256_1_0_0_1_n_n.rhsIdx (ix2 p q) ((ValueIdx.contrEquiv1 dot_S2000x256_S256x256_S2000x256_1_0_0_1_n_n 256 rfl rfl).symm k) = ix2 k q := funext fun x => Fin.ext (by
    match x with
    | ⟨0, _⟩ => exact (dot_S2000x256_S256x256_S2000x256_1_0_0_1_n_n.rhsIdx_val_of_single rfl _ _).trans hk
    | ⟨1, _⟩ => exact rhs256_1 _ _)
  rw [el, er]

theorem pay_mm128 (v0 : Vec Ideal S2000x128 .f32) (v2 : Vec Ideal S128x256 .f32) (p : Fin 2000) (q : Fin 256) :
    k0_pay2 (F := Ideal) v0 v2 (ix2 p q) = Cert.Gcn.mmAt v0 v2 p q := by
  unfold k0_pay2 k0_pay1 Cert.Gcn.mmAt
  exact matmul128_apply _ _ p q

theorem pay_mm128_bias (v0 : Vec Ideal S2000x128 .f32) (v4 : Vec Ideal S128x256 .f32) (v9 : Vec Ideal S1x256 .f32)
    (p : Fin 2000) (q : Fin 256) :
    k0_pay3 (F := Ideal) v0 v4 v9 (ix2 p q) = Cert.Gcn.mmAt v0 v4 p q + v9 (ix2 0 q) := by
  unfold k0_pay3 k0_pay1 Cert.Gcn.mmAt
  rw [shapeCast_self, addf_apply, broadcastTo_1b_ab_apply]
  exact congrArg (· + v9 (ix2 0 q)) (matmul128_apply _ _ p q)

theorem pay_mm256 (v0 : Vec Ideal S2000x256 .f32) (v3 : Vec Ideal S256x256 .f32) (p : Fin 2000) (q : Fin 256) :
    k2_pay1 (F := Ideal) v0 v3 (ix2 p q) = Cert.Gcn.mmAt v0 v3 p q := by
  unfold k2_pay1 Cert.Gcn.mmAt
  rw [shapeCast_self]
  exact matmul256_apply _ _ p q

/-! ## The row normalisation -/

/-- A column of `a` entries cast to an `[a, 1]` array reads, at `(i, u)`, the column at `i`, whatever the unit
    coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` (with `a` not 1) reads, at `(p, c)`, the operand's row `p`. -/
theorem broadcastTo_a1_ab_apply {α : Type} {a b : ℕ} (ha : a ≠ 1) (v : (⟨2, ![a, 1]⟩ : Shape).Idx → α)
    (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    rw [if_neg ha]
  | ⟨1, _⟩ => rfl

/-- The index a row's lane sum inserts on the reduced axis: `(p, k)`. -/
theorem lift_row (p : Fin 2000) (k : Fin 256) :
    reduces_S2000x256_S2000.lift (ix1 p) k = ix2 p k := by
  funext x
  match x with
  | ⟨0, _⟩ => exact Fin.ext rfl
  | ⟨1, _⟩ => exact Fin.ext rfl

/-- The lane sum of a 2000 × 256 block at row `p`: the sum of the row's 256 entries. -/
theorem rowSum_apply (src : FVec Ideal S2000x256 .f32) (p : Fin 2000) :
    multiReduction .add [1] S2000 src 0x00000000#32 reduces_S2000x256_S2000 (.inl rfl) rfl (ix1 p)
      = ∑ k : Fin 256, src (ix2 p k) := by
  refine (Ideal.multiReduction_add_single src _ reduces_S2000x256_S2000 (.inl rfl) rfl (ix1 p)).trans ?_
  exact Finset.sum_congr rfl fun k _ => congrArg src (lift_row p k)

/-- The lane sum kept as a column and spread back over the 256 lanes, read at `(p, q)`: row `p`'s sum. -/
theorem rowSum_col_apply (src : FVec Ideal S2000x256 .f32) (p : Fin 2000) (u : Fin 1) :
    shapeCast S2000x1 (multiReduction .add [1] S2000 src 0x00000000#32 reduces_S2000x256_S2000 (.inl rfl) rfl)
        shapeCasts_S2000_S2000x1 (ix2 p u)
      = ∑ k : Fin 256, src (ix2 p k) := by
  rw [shapeCast_a_a1_apply, rowSum_apply]

/-- The mean column of a block: each row's lane sum over 256, kept as a 2000 × 1 column. -/
def meanCol (x : FVec Ideal S2000x256 .f32) : FVec Ideal S2000x1 .f32 :=
  divf (shapeCast S2000x1 (multiReduction .add [1] S2000 x 0x00000000#32 reduces_S2000x256_S2000 (.inl rfl) rfl)
      shapeCasts_S2000_S2000x1)
    (broadcast S2000x1 (Scalar.ofBits .f32 0x43800000#32))

theorem meanCol_apply (x : FVec Ideal S2000x256 .f32) (p : Fin 2000) (u : Fin 1) :
    meanCol x (ix2 p u) = Ideal.div (∑ k : Fin 256, x (ix2 p k)) Cert.Gcn.c256 := by
  unfold meanCol
  rw [divf_apply, rowSum_col_apply]
  rfl

/-- The block minus its rows' means, the mean column spread back over the 256 lanes. -/
def centred (x : FVec Ideal S2000x256 .f32) : FVec Ideal S2000x256 .f32 :=
  subf x (broadcastTo S2000x256 (meanCol x) broadcasts_S2000x1_S2000x256)

theorem centred_apply (x : FVec Ideal S2000x256 .f32) (p : Fin 2000) (q : Fin 256) :
    centred x (ix2 p q) = x (ix2 p q) - Cert.Gcn.rowMean x p := by
  unfold centred Cert.Gcn.rowMean
  rw [subf_apply, broadcastTo_a1_ab_apply (by decide), meanCol_apply]

/-- The column of reciprocal square roots of the rows' variances plus the floor. -/
def rstdCol (x : FVec Ideal S2000x256 .f32) : FVec Ideal S2000x1 .f32 :=
  rsqrt (addf (meanCol (mulf (centred x) (centred x))) (broadcast S2000x1 (Scalar.ofBits .f32 0x3727C5AC#32)))

theorem rstdCol_apply (x : FVec Ideal S2000x256 .f32) (p : Fin 2000) (u : Fin 1) :
    rstdCol x (ix2 p u) = Ideal.rsqrt (Cert.Gcn.rowVar x p + Cert.Gcn.epsW) := by
  unfold rstdCol
  show Ideal.rsqrt (meanCol (mulf (centred x) (centred x)) (ix2 p u) + Cert.Gcn.epsW) = _
  rw [meanCol_apply]
  unfold Cert.Gcn.rowVar
  refine congrArg (fun s => Ideal.rsqrt (Ideal.div s Cert.Gcn.c256 + Cert.Gcn.epsW)) (Finset.sum_congr rfl fun k _ => ?_)
  rw [mulf_apply, centred_apply]

/-- The normalisation of a block `x` with scale row `g` and shift row `b`, as the two kernel bodies compute it
    from their pre-normalisation block. -/
def normTail (x : FVec Ideal S2000x256 .f32) (g b : Vec Ideal S1x256 .f32) : FVec Ideal S2000x256 .f32 :=
  addf (mulf (mulf (centred x) (broadcastTo S2000x256 (rstdCol x) broadcasts_S2000x1_S2000x256))
      (broadcastTo S2000x256 (shapeCast S1x256 g shapeCasts_S1x256_S1x256) broadcasts_S1x256_S2000x256))
    (broadcastTo S2000x256 (shapeCast S1x256 b shapeCasts_S1x256_S1x256) broadcasts_S1x256_S2000x256)

theorem normTail_apply (x : FVec Ideal S2000x256 .f32) (g b : Vec Ideal S1x256 .f32) (p : Fin 2000) (q : Fin 256) :
    normTail x g b (ix2 p q) = Cert.Gcn.lnAt x (fun c => g (ix2 0 c)) (fun c => b (ix2 0 c)) p q := by
  unfold normTail Cert.Gcn.lnAt
  rw [shapeCast_self, shapeCast_self, addf_apply, mulf_apply, mulf_apply, broadcastTo_1b_ab_apply,
    broadcastTo_1b_ab_apply, broadcastTo_a1_ab_apply (by decide), centred_apply, rstdCol_apply]

/-- First hop's pre-normalisation block: the residual block plus the rectified (messages plus bias row). -/
def preRelu (v0 v8 : Vec Ideal S2000x256 .f32) (v2 : Vec Ideal S1x256 .f32) : FVec Ideal S2000x256 .f32 :=
  addf (shapeCast S2000x256 v8 shapeCasts_S2000x256_S2000x256)
    (maximumf
      (addf (shapeCast S2000x256 v0 shapeCasts_S2000x256_S2000x256)
        (broadcastTo S2000x256 (shapeCast S1x256 v2 shapeCasts_S1x256_S1x256) broadcasts_S1x256_S2000x256))
      (broadcast S2000x256 (Scalar.ofBits .f32 0x00000000#32)))

theorem preRelu_apply (v0 v8 : Vec Ideal S2000x256 .f32) (v2 : Vec Ideal S1x256 .f32) (p : Fin 2000) (q : Fin 256) :
    preRelu v0 v8 v2 (ix2 p q) = Cert.Gcn.hopRelu v8 v0 (fun c => v2 (ix2 0 c)) (ix2 p q) := by
  unfold preRelu Cert.Gcn.hopRelu
  rw [shapeCast_self, shapeCast_self, shapeCast_self, addf_apply, maximumf_apply, addf_apply, broadcastTo_1b_ab_apply]
  rfl

/-- Second hop's pre-normalisation block: the stream block plus (messages plus bias row). -/
def prePlain (v0 v6 : Vec Ideal S2000x256 .f32) (v2 : Vec Ideal S1x256 .f32) : FVec Ideal S2000x256 .f32 :=
  addf (shapeCast S2000x256 v6 shapeCasts_S2000x256_S2000x256)
    (addf (shapeCast S2000x256 v0 shapeCasts_S2000x256_S2000x256)
      (broadcastTo S2000x256 (shapeCast S1x256 v2 shapeCasts_S1x256_S1x256) broadcasts_S1x256_S2000x256))

theorem prePlain_apply (v0 v6 : Vec Ideal S2000x256 .f32) (v2 : Vec Ideal S1x256 .f32) (p : Fin 2000) (q : Fin 256) :
    prePlain v0 v6 v2 (ix2 p q) = Cert.Gcn.hopPlain v6 v0 (fun c => v2 (ix2 0 c)) (ix2 p q) := by
  unfold prePlain Cert.Gcn.hopPlain
  rw [shapeCast_self, shapeCast_self, shapeCast_self, addf_apply, addf_apply, broadcastTo_1b_ab_apply]

theorem pay_norm_relu (v0 v8 : Vec Ideal S2000x256 .f32) (v2 v27 v31 : Vec Ideal S1x256 .f32) (p : Fin 2000) (q : Fin 256) :
    k1_pay1 (F := Ideal) v0 v2 v8 v27 v31 (ix2 p q)
      = Cert.Gcn.lnAt (Cert.Gcn.hopRelu v8 v0 (fun c => v2 (ix2 0 c))) (fun c => v27 (ix2 0 c)) (fun c => v31 (ix2 0 c)) p q := by
  have e : k1_pay1 (F := Ideal) v0 v2 v8 v27 v31 = normTail (preRelu v0 v8 v2) v27 v31 := rfl
  rw [e, normTail_apply]
  exact Cert.Gcn.lnAt_congr _ _ _ _ p p q fun k => preRelu_apply v0 v8 v2 p k

theorem pay_norm_plain (v0 v6 : Vec Ideal S2000x256 .f32) (v2 v25 v29 : Vec Ideal S1x256 .f32) (p : Fin 2000) (q : Fin 256) :
    k3_pay1 (F := Ideal) v0 v2 v6 v25 v29 (ix2 p q)
      = Cert.Gcn.lnAt (Cert.Gcn.hopPlain v6 v0 (fun c => v2 (ix2 0 c))) (fun c => v25 (ix2 0 c)) (fun c => v29 (ix2 0 c)) p q := by
  have e : k3_pay1 (F := Ideal) v0 v2 v6 v25 v29 = normTail (prePlain v0 v6 v2) v25 v29 := rfl
  rw [e, normTail_apply]
  exact Cert.Gcn.lnAt_congr _ _ _ _ p p q fun k => prePlain_apply v0 v6 v2 p k

end Cert.KernelIdeal.BodyValue

end
-- ==== Proof.Blocks0.lean ====
/-
  The first launch (the two projections sharing the node features as left factor), from blocks to arrays. Its grid
  has ten points; point t loads rows 2000·t … 2000·t + 1999 of the features, the two whole weight matrices and the
  bias row, and writes back the same 2000 rows of each output. So each output array ends holding, at row r, what the
  body computes from row r of the features: the product with the first weights, and the product with the residual
  weights plus the bias row.
-/
import proofs.«175884_j32375463477769_1_alg».proof.Proof.Gen.KernelIdeal.Frame
import proofs.«175884_j32375463477769_1_alg».proof.Proof.Spec
import proofs.«175884_j32375463477769_1_alg».proof.Proof.Payloads
import Idealize.ShloMosaic.Lib.Pipeline.Value
import Idealize.ShloMosaic.Lib.ValueIdx

set_option maxRecDepth 16384

noncomputable section

namespace Cert.KernelIdeal.BlockValue

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offset of a whole-buffer access. -/
theorem off00 : (![0, 0] : Fin 2 → Nat) = fun _ => 0 := funext fun a => by fin_cases a <;> rfl

/-- The printed block index maps over the grid: the row-blocked windows move together along the rows and sit at
    column block 0; the weight and bias windows stay at block (0, 0); there are ten row blocks. -/
theorem idx0 : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_5.index t (0 : Fin 2) = win0_4.index t (0 : Fin 2)
    ∧ win0_4.index t (1 : Fin 2) = 0 ∧ win0_5.index t (1 : Fin 2) = 0
    ∧ win0_4.index t (0 : Fin 2) ≤ 9 :=
  (by decide +kernel : ∀ t : Fin grid0.N, _)

/-- Every row block is some point's. -/
theorem onto0 : ∀ q0 : Fin 10, ∃ t : Fin cfg0.N, win0_4.index t (0 : Fin 2) = q0.val :=
  (by decide +kernel : ∀ q0 : Fin 10, ∃ t : Fin grid0.N, win0_4.index t (0 : Fin 2) = q0.val)

/-- Row p of point t's block of the features is row 2000·(block index) + p of the feature array. -/
theorem blk0_0 (c : Dev nD) (t : Fin cfg0.N) (p : Fin 2000) (k : Fin 128) (r : Fin 20000)
    (hr : r.val = win0_4.index t (0 : Fin 2) * 2000 + p.val) :
    iblk0 V c 0 t (ix2 p k) = V c main_arg0 (ix2 r k) := by
  obtain ⟨e0, e1, -⟩ := idx0 t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 2000 + 1 * p.val = r.val; omega
  | ⟨1, _⟩ => show win0_0.index t (1 : Fin 2) * 128 + 1 * k.val = k.val; omega

/-- The first weight matrix is loaded whole at every point. -/
theorem blk0_1 (c : Dev nD) (t : Fin cfg0.N) (y : S128x256.Idx) : iblk0 V c 1 t y = V c main_arg3 y := by
  obtain ⟨-, -, e2, e3, -⟩ := idx0 t
  show V c main_arg3 (((cfg0.win 1).blk t).view.emb y) = V c main_arg3 y
  refine congrArg (V c main_arg3) (funext fun a => Fin.ext ?_)
  match a with
  | ⟨0, _⟩ => show win0_1.index t (0 : Fin 2) * 128 + 1 * (y 0).val = (y 0).val; omega
  | ⟨1, _⟩ => show win0_1.index t (1 : Fin 2) * 256 + 1 * (y 1).val = (y 1).val; omega

/-- The residual weight matrix is loaded whole at every point. -/
theorem blk0_2 (c : Dev nD) (t : Fin cfg0.N) (y : S128x256.Idx) : iblk0 V c 2 t y = V c main_arg7 y := by
  obtain ⟨-, -, -, -, e4, e5, -⟩ := idx0 t
  show V c main_arg7 (((cfg0.win 2).blk t).view.emb y) = V c main_arg7 y
  refine congrArg (V c main_arg7) (funext fun a => Fin.ext ?_)
  match a with
  | ⟨0, _⟩ => show win0_2.index t (0 : Fin 2) * 128 + 1 * (y 0).val = (y 0).val; omega
  | ⟨1, _⟩ => show win0_2.index t (1 : Fin 2) * 256 + 1 * (y 1).val = (y 1).val; omega

/-- The bias row is loaded whole at every point. -/
theorem blk0_3 (c : Dev nD) (t : Fin cfg0.N) (y : S1x256.Idx) : iblk0 V c 3 t y = V c main_v32 y := by
  obtain ⟨-, -, -, -, -, -, e6, e7, -⟩ := idx0 t
  show V c main_v32 (((cfg0.win 3).blk t).view.emb y) = V c main_v32 y
  refine congrArg (V c main_v32) (funext fun a => Fin.ext ?_)
  match a with
  | ⟨0, _⟩ => show win0_3.index t (0 : Fin 2) * 1 + 1 * (y 0).val = (y 0).val; omega
  | ⟨1, _⟩ => show win0_3.index t (1 : Fin 2) * 256 + 1 * (y 1).val = (y 1).val; omega

/-- Entry (p, q) of point t's block of the first output sits at row 2000·(block index) + p, column q of its array. -/
theorem emb0_4 (t : Fin cfg0.N) (p : Fin 2000) (q : Fin 256) (r : Fin 20000)
    (hr : r.val = win0_4.index t (0 : Fin 2) * 2000 + p.val) :
    ((cfg0.win 4).blk t).view.emb (ix2 p q) = ix2 r q := by
  obtain ⟨-, -, -, -, -, -, -, -, -, e9, -⟩ := idx0 t
  refine funext fun a => Fin.ext ?_
  match a with
  | ⟨0, _⟩ => show win0_4.index t (0 : Fin 2) * 2000 + 1 * p.val = r.val; omega
  | ⟨1, _⟩ => show win0_4.index t (1 : Fin 2) * 256 + 1 * q.val = q.val; omega

/-- The same for the second output. -/
theorem emb0_5 (t : Fin cfg0.N) (p : Fin 2000) (q : Fin 256) (r : Fin 20000)
    (hr : r.val = win0_4.index t (0 : Fin 2) * 2000 + p.val) :
    ((cfg0.win 5).blk t).view.emb (ix2 p q) = ix2 r q := by
  obtain ⟨-, -, -, -, -, -, -, -, e8, -, e10, -⟩ := idx0 t
  refine funext fun a => Fin.ext ?_
  match a with
  | ⟨0, _⟩ => show win0_5.index t (0 : Fin 2) * 2000 + 1 * p.val = r.val; omega
  | ⟨1, _⟩ => show win0_5.index t (1 : Fin 2) * 256 + 1 * q.val = q.val; omega

/-- What point t writes back to the first output is its block of the product of the features with the first
    weights. -/
theorem flushed0_4 (c : Dev nD) (t : Fin cfg0.N) :
    (dat0 V c).flushed 4 t
      = ((cfg0.win 4).blk t).view.read (Elt Ideal) (Cert.Gcn.mm (V c main_arg0) (V c main_arg3)) := by
  show (cfg0.win 4).cut (grid0.coords t) ((dat0 V c).after 4 t) = _
  rw [after0_4]
  unfold out0_4
  rw [View.canon_unit_zero off00]
  simp only [View.ld_unit_zero (S := S2000x128) off00, View.ld_unit_zero (S := S128x256) off00]
  funext j
  obtain ⟨p, q, rfl⟩ : ∃ (p : Fin 2000) (q : Fin 256), j = ix2 p q := ⟨j 0, j 1, eq_ix2 j⟩
  have hb : win0_4.index t (0 : Fin 2) ≤ 9 := (idx0 t).2.2.2.2.2.2.2.2.2.2.2
  have hlt : win0_4.index t (0 : Fin 2) * 2000 + p.val < 20000 := by have := p.isLt; omega
  refine (BodyValue.pay_mm128 (iblk0 V c 0 t) (iblk0 V c 1 t) p q).trans ?_
  show _ = Cert.Gcn.mm (V c main_arg0) (V c main_arg3) (((cfg0.win 4).blk t).view.emb (ix2 p q))
  rw [emb0_4 t p q ⟨_, hlt⟩ rfl]
  exact Cert.Gcn.mmAt_congr _ _ _ _ _ _ _ _ (fun k => blk0_0 V c t p k ⟨_, hlt⟩ rfl) (fun k => blk0_1 V c t _)

/-- What point t writes back to the second output is its block of the product of the features with the residual
    weights, plus the bias row. -/
theorem flushed0_5 (c : Dev nD) (t : Fin cfg0.N) :
    (dat0 V c).flushed 5 t
      = ((cfg0.win 5).blk t).view.read (Elt Ideal)
          (Cert.Gcn.addRow (Cert.Gcn.mm (V c main_arg0) (V c main_arg7)) (fun q => V c main_v32 (ix2 0 q))) := by
  show (cfg0.win 5).cut (grid0.coords t) ((dat0 V c).after 5 t) = _
  rw [after0_5]
  unfold out0_5
  rw [View.canon_unit_zero off00]
  simp only [View.ld_unit_zero (S := S2000x128) off00, View.ld_unit_zero (S := S128x256) off00, View.ld_unit_zero (S := S1x256) off00]
  funext j
  obtain ⟨p, q, rfl⟩ : ∃ (p : Fin 2000) (q : Fin 256), j = ix2 p q := ⟨j 0, j 1, eq_ix2 j⟩
  have hb : win0_4.index t (0 : Fin 2) ≤ 9 := (idx0 t).2.2.2.2.2.2.2.2.2.2.2
  have hlt : win0_4.index t (0 : Fin 2) * 2000 + p.val < 20000 := by have := p.isLt; omega
  refine (BodyValue.pay_mm128_bias (iblk0 V c 0 t) (iblk0 V c 2 t) (iblk0 V c 3 t) p q).trans ?_
  show _ = Cert.Gcn.addRow (Cert.Gcn.mm (V c main_arg0) (V c main_arg7)) (fun q => V c main_v32 (ix2 0 q)) (((cfg0.win 5).blk t).view.emb (ix2 p q))
  rw [emb0_5 t p q ⟨_, hlt⟩ rfl, blk0_3 V c t]
  exact congrArg (· + V c main_v32 (ix2 0 q))
    (Cert.Gcn.mmAt_congr _ _ _ _ _ _ _ _ (fun k => blk0_0 V c t p k ⟨_, hlt⟩ rfl) (fun k => blk0_2 V c t _))

/-- An index of the array is in point t's block of the first output iff each coordinate is in the block's range. -/
theorem mem0_4 (t : Fin cfg0.N) (i : S20000x256.Idx) :
    i ∈ ((cfg0.win 4).blk t).view.set ↔ ∀ a : Fin 2, win0_4.index t a * S2000x256.size a ≤ (i a).val ∧ (i a).val < win0_4.index t a * S2000x256.size a + S2000x256.size a := by
  show i ∈ ((View.whole main_v33_0).slice (win0_4.rect t)).set ↔ _
  rw [View.set_slice_whole, Rect.mem_set_unit]
  exact Iff.rfl

theorem mem0_5 (t : Fin cfg0.N) (i : S20000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v33_1).slice (win0_5.rect t)).set ↔ _
  rw [View.set_slice_whole, Rect.mem_set_unit]
  exact Iff.rfl

/-- Every index of the first output is in the block of the point that owns its row block. -/
theorem cover0_4' (i : S20000x256.Idx) : ∃ t : Fin cfg0.N, (cfg0.win 4).flush t = true ∧ i ∈ ((cfg0.win 4).blk t).view.set := by
  have hi0 : (i 0).val < 20000 := (i 0).isLt
  have hi1 : (i 1).val < 256 := (i 1).isLt
  obtain ⟨t, ht⟩ := onto0 ⟨(i 0).val / 2000, by omega⟩
  have ht' : win0_4.index t (0 : Fin 2) = (i 0).val / 2000 := ht
  obtain ⟨-, -, -, -, -, -, -, -, -, e9, -⟩ := idx0 t
  refine ⟨t, flush0_4 t, ?_⟩
  rw [mem0_4]
  intro a
  match a with
  | ⟨0, _⟩ => show win0_4.index t (0 : Fin 2) * 2000 ≤ (i 0).val ∧ (i 0).val < win0_4.index t (0 : Fin 2) * 2000 + 2000; omega
  | ⟨1, _⟩ => show win0_4.index t (1 : Fin 2) * 256 ≤ (i 1).val ∧ (i 1).val < win0_4.index t (1 : Fin 2) * 256 + 256; omega

theorem cover0_5' (i : S20000x256.Idx) : ∃ t : Fin cfg0.N, (cfg0.win 5).flush t = true ∧ i ∈ ((cfg0.win 5).blk t).view.set := by
  have hi0 : (i 0).val < 20000 := (i 0).isLt
  have hi1 : (i 1).val < 256 := (i 1).isLt
  obtain ⟨t, ht⟩ := onto0 ⟨(i 0).val / 2000, by omega⟩
  have ht' : win0_4.index t (0 : Fin 2) = (i 0).val / 2000 := ht
  obtain ⟨-, -, -, -, -, -, -, -, e8, -, e10, -⟩ := idx0 t
  refine ⟨t, flush0_5 t, ?_⟩
  rw [mem0_5]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 256 ≤ (i 1).val ∧ (i 1).val < win0_5.index t (1 : Fin 2) * 256 + 256; omega

/-- After the launch the first output array is the product of the features with the first weights. -/
theorem final0_4 (c : Dev nD) :
    (dat0 V c).arrAt 4 cfg0.N = Cert.Gcn.mm (V c main_arg0) (V c main_arg3) :=
  (dat0 V c).arrAt_eq_of_cover 4 _ (fun t _ => flushed0_4 V c t) cover0_4'

/-- After the launch the second output array is the product of the features with the residual weights plus the bias
    row. -/
theorem final0_5 (c : Dev nD) :
    (dat0 V c).arrAt 5 cfg0.N
      = Cert.Gcn.addRow (Cert.Gcn.mm (V c main_arg0) (V c main_arg7)) (fun q => V c main_v32 (ix2 0 q)) :=
  (dat0 V c).arrAt_eq_of_cover 5 _ (fun t _ => flushed0_5 V c t) cover0_5'

end Cert.KernelIdeal.BlockValue

end
-- ==== Proof.Blocks1.lean ====
/-
  The first hop's fused launch, from blocks to arrays. Its grid has ten points; point t loads rows 2000·t … 2000·t + 1999
  of the residual projection and of the aggregated messages, and the bias, scale and shift rows whole, and writes back
  the same 2000 rows of the output. The body adds the bias to the messages, rectifies, adds the residual projection and
  normalises each row over its 256 features; a row's result reads that row only, so the output array ends holding, at
  row r, the normalisation of row r of the combined array.
-/
import proofs.«175884_j32375463477769_1_alg».proof.Proof.Gen.KernelIdeal.Frame
import proofs.«175884_j32375463477769_1_alg».proof.Proof.Spec
import proofs.«175884_j32375463477769_1_alg».proof.Proof.Payloads
import Idealize.ShloMosaic.Lib.Pipeline.Value
import Idealize.ShloMosaic.Lib.ValueIdx

set_option maxRecDepth 16384

noncomputable section

namespace Cert.KernelIdeal.BlockValue1

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offset of a whole-buffer access. -/
theorem off00 : (![0, 0] : Fin 2 → Nat) = fun _ => 0 := funext fun a => by fin_cases a <;> rfl

/-- The printed block index maps over the grid: the three row-blocked windows move together along the rows and sit at
    column block 0; the bias, scale and shift windows stay at block (0, 0); there are ten row blocks. -/
theorem idx1 : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0
    ∧ win1_5.index t (0 : Fin 2) ≤ 9 :=
  (by decide +kernel : ∀ t : Fin grid1.N, _)

/-- Every row block is some point's. -/
theorem onto1 : ∀ q0 : Fin 10, ∃ t : Fin cfg1.N, win1_5.index t (0 : Fin 2) = q0.val :=
  (by decide +kernel : ∀ q0 : Fin 10, ∃ t : Fin grid1.N, win1_5.index t (0 : Fin 2) = q0.val)

/-- Row p of point t's block of the residual stream is row 2000·(block index) + p of its array. -/
theorem blk1_0 (c : Dev nD) (t : Fin cfg1.N) (p : Fin 2000) (k : Fin 256) (r : Fin 20000)
    (hr : r.val = win1_5.index t (0 : Fin 2) * 2000 + p.val) :
    iblk1 V c 0 t (ix2 p k) = V c main_v33_1 (ix2 r k) := by
  have e := idx1 t
  show V c main_v33_1 (((cfg1.win 0).blk t).view.emb (ix2 p k)) = V c main_v33_1 (ix2 r k)
  refine congrArg (V c main_v33_1) (funext fun a => Fin.ext ?_)
  match a with
  | ⟨0, _⟩ => show win1_0.index t (0 : Fin 2) * 2000 + 1 * p.val = r.val; omega
  | ⟨1, _⟩ => show win1_0.index t (1 : Fin 2) * 256 + 1 * k.val = k.val; omega

/-- Row p of point t's block of the aggregated messages is row 2000·(block index) + p of its array. -/
theorem blk1_1 (c : Dev nD) (t : Fin cfg1.N) (p : Fin 2000) (k : Fin 256) (r : Fin 20000)
    (hr : r.val = win1_5.index t (0 : Fin 2) * 2000 + p.val) :
    iblk1 V c 1 t (ix2 p k) = V c main_v46 (ix2 r k) := by
  have e := idx1 t
  show V c main_v46 (((cfg1.win 1).blk t).view.emb (ix2 p k)) = V c main_v46 (ix2 r k)
  refine congrArg (V c main_v46) (funext fun a => Fin.ext ?_)
  match a with
  | ⟨0, _⟩ => show win1_1.index t (0 : Fin 2) * 2000 + 1 * p.val = r.val; omega
  | ⟨1, _⟩ => show win1_1.index t (1 : Fin 2) * 256 + 1 * k.val = k.val; omega

/-- The bias row is loaded whole at every point. -/
theorem blk1_2 (c : Dev nD) (t : Fin cfg1.N) (y : S1x256.Idx) : iblk1 V c 2 t y = V c main_v47 y := by
  have e := idx1 t
  show V c main_v47 (((cfg1.win 2).blk t).view.emb y) = V c main_v47 y
  refine congrArg (V c main_v47) (funext fun a => Fin.ext ?_)
  match a with
  | ⟨0, _⟩ => show win1_2.index t (0 : Fin 2) * 1 + 1 * (y 0).val = (y 0).val; omega
  | ⟨1, _⟩ => show win1_2.index t (1 : Fin 2) * 256 + 1 * (y 1).val = (y 1).val; omega

/-- The scale row is loaded whole at every point. -/
theorem blk1_3 (c : Dev nD) (t : Fin cfg1.N) (y : S1x256.Idx) : iblk1 V c 3 t y = V c main_v48 y := by
  have e := idx1 t
  show V c main_v48 (((cfg1.win 3).blk t).view.emb y) = V c main_v48 y
  refine congrArg (V c main_v48) (funext fun a => Fin.ext ?_)
  match a with
  | ⟨0, _⟩ => show win1_3.index t (0 : Fin 2) * 1 + 1 * (y 0).val = (y 0).val; omega
  | ⟨1, _⟩ => show win1_3.index t (1 : Fin 2) * 256 + 1 * (y 1).val = (y 1).val; omega

/-- The shift row is loaded whole at every point. -/
theorem blk1_4 (c : Dev nD) (t : Fin cfg1.N) (y : S1x256.Idx) : iblk1 V c 4 t y = V c main_v49 y := by
  have e := idx1 t
  show V c main_v49 (((cfg1.win 4).blk t).view.emb y) = V c main_v49 y
  refine congrArg (V c main_v49) (funext fun a => Fin.ext ?_)
  match a with
  | ⟨0, _⟩ => show win1_4.index t (0 : Fin 2) * 1 + 1 * (y 0).val = (y 0).val; omega
  | ⟨1, _⟩ => show win1_4.index t (1 : Fin 2) * 256 + 1 * (y 1).val = (y 1).val; omega

/-- Entry (p, q) of point t's block of the output sits at row 2000·(block index) + p, column q of its array. -/
theorem emb1_5 (t : Fin cfg1.N) (p : Fin 2000) (q : Fin 256) (r : Fin 20000)
    (hr : r.val = win1_5.index t (0 : Fin 2) * 2000 + p.val) :
    ((cfg1.win 5).blk t).view.emb (ix2 p q) = ix2 r q := by
  have e := idx1 t
  refine funext fun a => Fin.ext ?_
  match a with
  | ⟨0, _⟩ => show win1_5.index t (0 : Fin 2) * 2000 + 1 * p.val = r.val; omega
  | ⟨1, _⟩ => show win1_5.index t (1 : Fin 2) * 256 + 1 * q.val = q.val; omega

/-- The array the launch computes: each row of (stream combined with aggregated messages and bias) normalised over
    its 256 features, scaled and shifted; the three vectors are rows of 1 × 256 arrays. -/
def normed (base agg : Cert.Gcn.Mat 20000 256) (bias g b : Cert.Gcn.Mat 1 256) : Cert.Gcn.Mat 20000 256 :=
  fun i => Cert.Gcn.lnAt (Cert.Gcn.hopRelu base agg (fun q => bias (ix2 0 q))) (fun q => g (ix2 0 q)) (fun q => b (ix2 0 q)) (i 0) (i 1)

/-- What point t writes back is its block of that array: a row's normalisation reads that row only, and the
    block's row p is the array's row 2000·(block index) + p. -/
theorem flushed1_5 (c : Dev nD) (t : Fin cfg1.N) :
    (dat1 V c).flushed 5 t
      = ((cfg1.win 5).blk t).view.read (Elt Ideal)
          (normed (V c main_v33_1) (V c main_v46) (V c main_v47) (V c main_v48) (V c main_v49)) := by
  show (cfg1.win 5).cut (grid1.coords t) ((dat1 V c).after 5 t) = _
  rw [after1_5]
  unfold out1_5
  rw [View.canon_unit_zero off00]
  simp only [View.ld_unit_zero (S := S2000x256) off00, View.ld_unit_zero (S := S1x256) off00]
  funext j
  obtain ⟨p, q, rfl⟩ : ∃ (p : Fin 2000) (q : Fin 256), j = ix2 p q := ⟨j 0, j 1, eq_ix2 j⟩
  have hb : win1_5.index t (0 : Fin 2) ≤ 9 := (idx1 t).2.2.2.2.2.2.2.2.2.2.2
  have hlt : win1_5.index t (0 : Fin 2) * 2000 + p.val < 20000 := by have := p.isLt; omega
  refine (BodyValue.pay_norm_relu (iblk1 V c 1 t) (iblk1 V c 0 t) (iblk1 V c 2 t) (iblk1 V c 3 t) (iblk1 V c 4 t) p q).trans ?_
  show _ = normed (V c main_v33_1) (V c main_v46) (V c main_v47) (V c main_v48) (V c main_v49) (((cfg1.win 5).blk t).view.emb (ix2 p q))
  rw [emb1_5 t p q ⟨_, hlt⟩ rfl]
  show _ = Cert.Gcn.lnAt (Cert.Gcn.hopRelu (V c main_v33_1) (V c main_v46) (fun q => V c main_v47 (ix2 0 q))) (fun q => V c main_v48 (ix2 0 q)) (fun q => V c main_v49 (ix2 0 q)) ⟨_, hlt⟩ q
  have h2 : (fun q : Fin 256 => iblk1 V c 2 t (ix2 0 q)) = fun q => V c main_v47 (ix2 0 q) := funext fun q => blk1_2 V c t _
  have h3 : (fun q : Fin 256 => iblk1 V c 3 t (ix2 0 q)) = fun q => V c main_v48 (ix2 0 q) := funext fun q => blk1_3 V c t _
  have h4 : (fun q : Fin 256 => iblk1 V c 4 t (ix2 0 q)) = fun q => V c main_v49 (ix2 0 q) := funext fun q => blk1_4 V c t _
  rw [h2, h3, h4]
  refine Cert.Gcn.lnAt_congr _ _ _ _ p ⟨_, hlt⟩ q fun k => ?_
  simp only [Cert.Gcn.hopRelu]
  rw [blk1_0 V c t p k ⟨_, hlt⟩ rfl, blk1_1 V c t p k ⟨_, hlt⟩ rfl]

/-- An index of the array is in point t's block iff each coordinate is in the block's range on its axis. -/
theorem mem1_5 (t : Fin cfg1.N) (i : S20000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v50).slice (win1_5.rect t)).set ↔ _
  rw [View.set_slice_whole, Rect.mem_set_unit]
  exact Iff.rfl

/-- Every index of the output is in the block of the point that owns its row block. -/
theorem cover1_5' (i : S20000x256.Idx) : ∃ t : Fin cfg1.N, (cfg1.win 5).flush t = true ∧ i ∈ ((cfg1.win 5).blk t).view.set := by
  have hi0 : (i 0).val < 20000 := (i 0).isLt
  have hi1 : (i 1).val < 256 := (i 1).isLt
  obtain ⟨t, ht⟩ := onto1 ⟨(i 0).val / 2000, by omega⟩
  have ht' : win1_5.index t (0 : Fin 2) = (i 0).val / 2000 := ht
  have e := idx1 t
  refine ⟨t, flush1_5 t, ?_⟩
  rw [mem1_5]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 256 ≤ (i 1).val ∧ (i 1).val < win1_5.index t (1 : Fin 2) * 256 + 256; omega

/-- After the launch the output array is the normalised array. -/
theorem final1_5 (c : Dev nD) :
    (dat1 V c).arrAt 5 cfg1.N = normed (V c main_v33_1) (V c main_v46) (V c main_v47) (V c main_v48) (V c main_v49) :=
  (dat1 V c).arrAt_eq_of_cover 5 _ (fun t _ => flushed1_5 V c t) cover1_5'

end Cert.KernelIdeal.BlockValue1

end
-- ==== Proof.Blocks2.lean ====
/-
  The second hop's projection launch, from blocks to arrays. Its grid has ten points; point t loads rows
  2000·t … 2000·t + 1999 of the first hop's output and the whole 256 × 256 weight matrix, and writes back the same 2000
  rows of the product. So the output array ends holding the product of the first hop's output with the weights.
-/
import proofs.«175884_j32375463477769_1_alg».proof.Proof.Gen.KernelIdeal.Frame
import proofs.«175884_j32375463477769_1_alg».proof.Proof.Spec
import proofs.«175884_j32375463477769_1_alg».proof.Proof.Payloads
import Idealize.ShloMosaic.Lib.Pipeline.Value
import Idealize.ShloMosaic.Lib.ValueIdx

set_option maxRecDepth 16384

noncomputable section

namespace Cert.KernelIdeal.BlockValue2

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offset of a whole-buffer access. -/
theorem off00 : (![0, 0] : Fin 2 → Nat) = fun _ => 0 := funext fun a => by fin_cases a <;> rfl

/-- The printed block index maps over the grid: input and output move together along the rows at column block 0; the
    weights stay at block (0, 0); there are ten row blocks. -/
theorem idx2 : ∀ t : Fin cfg2.N,
    win2_0.index t (0 : Fin 2) = win2_2.index t (0 : Fin 2) ∧ win2_0.index t (1 : Fin 2) = 0
    ∧ win2_1.index t (0 : Fin 2) = 0 ∧ win2_1.index t (1 : Fin 2) = 0
    ∧ win2_2.index t (1 : Fin 2) = 0
    ∧ win2_2.index t (0 : Fin 2) ≤ 9 :=
  (by decide +kernel : ∀ t : Fin grid2.N, _)

/-- Every row block is some point's. -/
theorem onto2 : ∀ q0 : Fin 10, ∃ t : Fin cfg2.N, win2_2.index t (0 : Fin 2) = q0.val :=
  (by decide +kernel : ∀ q0 : Fin 10, ∃ t : Fin grid2.N, win2_2.index t (0 : Fin 2) = q0.val)

/-- Row p of point t's block of the stream is row 2000·(block index) + p of its array. -/
theorem blk2_0 (c : Dev nD) (t : Fin cfg2.N) (p : Fin 2000) (k : Fin 256) (r : Fin 20000)
    (hr : r.val = win2_2.index t (0 : Fin 2) * 2000 + p.val) :
    iblk2 V c 0 t (ix2 p k) = V c main_v50 (ix2 r k) := by
  have e := idx2 t
  show V c main_v50 (((cfg2.win 0).blk t).view.emb (ix2 p k)) = V c main_v50 (ix2 r k)
  refine congrArg (V c main_v50) (funext fun a => Fin.ext ?_)
  match a with
  | ⟨0, _⟩ => show win2_0.index t (0 : Fin 2) * 2000 + 1 * p.val = r.val; omega
  | ⟨1, _⟩ => show win2_0.index t (1 : Fin 2) * 256 + 1 * k.val = k.val; omega

/-- The weight matrix is loaded whole at every point. -/
theorem blk2_1 (c : Dev nD) (t : Fin cfg2.N) (y : S256x256.Idx) : iblk2 V c 1 t y = V c main_arg5 y := by
  have e := idx2 t
  show V c main_arg5 (((cfg2.win 1).blk t).view.emb y) = V c main_arg5 y
  refine congrArg (V c main_arg5) (funext fun a => Fin.ext ?_)
  match a with
  | ⟨0, _⟩ => show win2_1.index t (0 : Fin 2) * 256 + 1 * (y 0).val = (y 0).val; omega
  | ⟨1, _⟩ => show win2_1.index t (1 : Fin 2) * 256 + 1 * (y 1).val = (y 1).val; omega

/-- Entry (p, q) of point t's block of the output sits at row 2000·(block index) + p, column q of its array. -/
theorem emb2_2 (t : Fin cfg2.N) (p : Fin 2000) (q : Fin 256) (r : Fin 20000)
    (hr : r.val = win2_2.index t (0 : Fin 2) * 2000 + p.val) :
    ((cfg2.win 2).blk t).view.emb (ix2 p q) = ix2 r q := by
  have e := idx2 t
  refine funext fun a => Fin.ext ?_
  match a with
  | ⟨0, _⟩ => show win2_2.index t (0 : Fin 2) * 2000 + 1 * p.val = r.val; omega
  | ⟨1, _⟩ => show win2_2.index t (1 : Fin 2) * 256 + 1 * q.val = q.val; omega

/-- What point t writes back is its block of the product of the stream with the weights. -/
theorem flushed2_2 (c : Dev nD) (t : Fin cfg2.N) :
    (dat2 V c).flushed 2 t
      = ((cfg2.win 2).blk t).view.read (Elt Ideal) (Cert.Gcn.mm (V c main_v50) (V c main_arg5)) := by
  show (cfg2.win 2).cut (grid2.coords t) ((dat2 V c).after 2 t) = _
  rw [after2_2]
  unfold out2_2
  rw [View.canon_unit_zero off00]
  simp only [View.ld_unit_zero (S := S2000x256) off00, View.ld_unit_zero (S := S256x256) off00]
  funext j
  obtain ⟨p, q, rfl⟩ : ∃ (p : Fin 2000) (q : Fin 256), j = ix2 p q := ⟨j 0, j 1, eq_ix2 j⟩
  have hb : win2_2.index t (0 : Fin 2) ≤ 9 := (idx2 t).2.2.2.2.2
  have hlt : win2_2.index t (0 : Fin 2) * 2000 + p.val < 20000 := by have := p.isLt; omega
  refine (BodyValue.pay_mm256 (iblk2 V c 0 t) (iblk2 V c 1 t) p q).trans ?_
  show _ = Cert.Gcn.mm (V c main_v50) (V c main_arg5) (((cfg2.win 2).blk t).view.emb (ix2 p q))
  rw [emb2_2 t p q ⟨_, hlt⟩ rfl]
  exact Cert.Gcn.mmAt_congr _ _ _ _ _ _ _ _ (fun k => blk2_0 V c t p k ⟨_, hlt⟩ rfl) (fun k => blk2_1 V c t _)

/-- An index of the array is in point t's block iff each coordinate is in the block's range on its axis. -/
theorem mem2_2 (t : Fin cfg2.N) (i : S20000x256.Idx) :
    i ∈ ((cfg2.win 2).blk t).view.set ↔ ∀ a : Fin 2, win2_2.index t a * S2000x256.size a ≤ (i a).val ∧ (i a).val < win2_2.index t a * S2000x256.size a + S2000x256.size a := by
  show i ∈ ((View.whole main_v51).slice (win2_2.rect t)).set ↔ _
  rw [View.set_slice_whole, Rect.mem_set_unit]
  exact Iff.rfl

/-- Every index of the output is in the block of the point that owns its row block. -/
theorem cover2_2' (i : S20000x256.Idx) : ∃ t : Fin cfg2.N, (cfg2.win 2).flush t = true ∧ i ∈ ((cfg2.win 2).blk t).view.set := by
  have hi0 : (i 0).val < 20000 := (i 0).isLt
  have hi1 : (i 1).val < 256 := (i 1).isLt
  obtain ⟨t, ht⟩ := onto2 ⟨(i 0).val / 2000, by omega⟩
  have ht' : win2_2.index t (0 : Fin 2) = (i 0).val / 2000 := ht
  have e := idx2 t
  refine ⟨t, flush2_2 t, ?_⟩
  rw [mem2_2]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 256 ≤ (i 1).val ∧ (i 1).val < win2_2.index t (1 : Fin 2) * 256 + 256; omega

/-- After the launch the output array is the product of the stream with the weights. -/
theorem final2_2 (c : Dev nD) :
    (dat2 V c).arrAt 2 cfg2.N = Cert.Gcn.mm (V c main_v50) (V c main_arg5) :=
  (dat2 V c).arrAt_eq_of_cover 2 _ (fun t _ => flushed2_2 V c t) cover2_2'

end Cert.KernelIdeal.BlockValue2

end
-- ==== Proof.Blocks3.lean ====
/-
  The second hop's fused launch, from blocks to arrays. Its grid has ten points; point t loads rows 2000·t … 2000·t + 1999
  of the first hop's output and of the aggregated messages, and the bias, scale and shift rows whole, and writes back
  the same 2000 rows of the result. The body adds the bias to the messages, adds the stream (no rectifier in this hop)
  and normalises each row over its 256 features; a row's result reads that row only, so the result array ends holding,
  at row r, the normalisation of row r of the combined array.
-/
import proofs.«175884_j32375463477769_1_alg».proof.Proof.Gen.KernelIdeal.Frame
import proofs.«175884_j32375463477769_1_alg».proof.Proof.Spec
import proofs.«175884_j32375463477769_1_alg».proof.Proof.Payloads
import Idealize.ShloMosaic.Lib.Pipeline.Value
import Idealize.ShloMosaic.Lib.ValueIdx

set_option maxRecDepth 16384

noncomputable section

namespace Cert.KernelIdeal.BlockValue3

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The zero offset of a whole-buffer access. -/
theorem off00 : (![0, 0] : Fin 2 → Nat) = fun _ => 0 := funext fun a => by fin_cases a <;> rfl

/-- The printed block index maps over the grid: the three row-blocked windows move together along the rows and sit at
    column block 0; the bias, scale and shift windows stay at block (0, 0); there are ten row blocks. -/
theorem idx3 : ∀ t : Fin cfg3.N,
    win3_0.index t (0 : Fin 2) = win3_5.index t (0 : Fin 2) ∧ win3_0.index t (1 : Fin 2) = 0
    ∧ win3_1.index t (0 : Fin 2) = win3_5.index t (0 : Fin 2) ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (1 : Fin 2) = 0
    ∧ win3_5.index t (0 : Fin 2) ≤ 9 :=
  (by decide +kernel : ∀ t : Fin grid3.N, _)

/-- Every row block is some point's. -/
theorem onto3 : ∀ q0 : Fin 10, ∃ t : Fin cfg3.N, win3_5.index t (0 : Fin 2) = q0.val :=
  (by decide +kernel : ∀ q0 : Fin 10, ∃ t : Fin grid3.N, win3_5.index t (0 : Fin 2) = q0.val)

/-- Row p of point t's block of the residual stream is row 2000·(block index) + p of its array. -/
theorem blk3_0 (c : Dev nD) (t : Fin cfg3.N) (p : Fin 2000) (k : Fin 256) (r : Fin 20000)
    (hr : r.val = win3_5.index t (0 : Fin 2) * 2000 + p.val) :
    iblk3 V c 0 t (ix2 p k) = V c main_v50 (ix2 r k) := by
  have e := idx3 t
  show V c main_v50 (((cfg3.win 0).blk t).view.emb (ix2 p k)) = V c main_v50 (ix2 r k)
  refine congrArg (V c main_v50) (funext fun a => Fin.ext ?_)
  match a with
  | ⟨0, _⟩ => show win3_0.index t (0 : Fin 2) * 2000 + 1 * p.val = r.val; omega
  | ⟨1, _⟩ => show win3_0.index t (1 : Fin 2) * 256 + 1 * k.val = k.val; omega

/-- Row p of point t's block of the aggregated messages is row 2000·(block index) + p of its array. -/
theorem blk3_1 (c : Dev nD) (t : Fin cfg3.N) (p : Fin 2000) (k : Fin 256) (r : Fin 20000)
    (hr : r.val = win3_5.index t (0 : Fin 2) * 2000 + p.val) :
    iblk3 V c 1 t (ix2 p k) = V c main_v64 (ix2 r k) := by
  have e := idx3 t
  show V c main_v64 (((cfg3.win 1).blk t).view.emb (ix2 p k)) = V c main_v64 (ix2 r k)
  refine congrArg (V c main_v64) (funext fun a => Fin.ext ?_)
  match a with
  | ⟨0, _⟩ => show win3_1.index t (0 : Fin 2) * 2000 + 1 * p.val = r.val; omega
  | ⟨1, _⟩ => show win3_1.index t (1 : Fin 2) * 256 + 1 * k.val = k.val; omega

/-- The bias row is loaded whole at every point. -/
theorem blk3_2 (c : Dev nD) (t : Fin cfg3.N) (y : S1x256.Idx) : iblk3 V c 2 t y = V c main_v65 y := by
  have e := idx3 t
  show V c main_v65 (((cfg3.win 2).blk t).view.emb y) = V c main_v65 y
  refine congrArg (V c main_v65) (funext fun a => Fin.ext ?_)
  match a with
  | ⟨0, _⟩ => show win3_2.index t (0 : Fin 2) * 1 + 1 * (y 0).val = (y 0).val; omega
  | ⟨1, _⟩ => show win3_2.index t (1 : Fin 2) * 256 + 1 * (y 1).val = (y 1).val; omega

/-- The scale row is loaded whole at every point. -/
theorem blk3_3 (c : Dev nD) (t : Fin cfg3.N) (y : S1x256.Idx) : iblk3 V c 3 t y = V c main_v66 y := by
  have e := idx3 t
  show V c main_v66 (((cfg3.win 3).blk t).view.emb y) = V c main_v66 y
  refine congrArg (V c main_v66) (funext fun a => Fin.ext ?_)
  match a with
  | ⟨0, _⟩ => show win3_3.index t (0 : Fin 2) * 1 + 1 * (y 0).val = (y 0).val; omega
  | ⟨1, _⟩ => show win3_3.index t (1 : Fin 2) * 256 + 1 * (y 1).val = (y 1).val; omega

/-- The shift row is loaded whole at every point. -/
theorem blk3_4 (c : Dev nD) (t : Fin cfg3.N) (y : S1x256.Idx) : iblk3 V c 4 t y = V c main_v67 y := by
  have e := idx3 t
  show V c main_v67 (((cfg3.win 4).blk t).view.emb y) = V c main_v67 y
  refine congrArg (V c main_v67) (funext fun a => Fin.ext ?_)
  match a with
  | ⟨0, _⟩ => show win3_4.index t (0 : Fin 2) * 1 + 1 * (y 0).val = (y 0).val; omega
  | ⟨1, _⟩ => show win3_4.index t (1 : Fin 2) * 256 + 1 * (y 1).val = (y 1).val; omega

/-- Entry (p, q) of point t's block of the output sits at row 2000·(block index) + p, column q of its array. -/
theorem emb3_5 (t : Fin cfg3.N) (p : Fin 2000) (q : Fin 256) (r : Fin 20000)
    (hr : r.val = win3_5.index t (0 : Fin 2) * 2000 + p.val) :
    ((cfg3.win 5).blk t).view.emb (ix2 p q) = ix2 r q := by
  have e := idx3 t
  refine funext fun a => Fin.ext ?_
  match a with
  | ⟨0, _⟩ => show win3_5.index t (0 : Fin 2) * 2000 + 1 * p.val = r.val; omega
  | ⟨1, _⟩ => show win3_5.index t (1 : Fin 2) * 256 + 1 * q.val = q.val; omega

/-- The array the launch computes: each row of (stream combined with aggregated messages and bias) normalised over
    its 256 features, scaled and shifted; the three vectors are rows of 1 × 256 arrays. -/
def normed (base agg : Cert.Gcn.Mat 20000 256) (bias g b : Cert.Gcn.Mat 1 256) : Cert.Gcn.Mat 20000 256 :=
  fun i => Cert.Gcn.lnAt (Cert.Gcn.hopPlain base agg (fun q => bias (ix2 0 q))) (fun q => g (ix2 0 q)) (fun q => b (ix2 0 q)) (i 0) (i 1)

/-- What point t writes back is its block of that array: a row's normalisation reads that row only, and the
    block's row p is the array's row 2000·(block index) + p. -/
theorem flushed3_5 (c : Dev nD) (t : Fin cfg3.N) :
    (dat3 V c).flushed 5 t
      = ((cfg3.win 5).blk t).view.read (Elt Ideal)
          (normed (V c main_v50) (V c main_v64) (V c main_v65) (V c main_v66) (V c main_v67)) := by
  show (cfg3.win 5).cut (grid3.coords t) ((dat3 V c).after 5 t) = _
  rw [after3_5]
  unfold out3_5
  rw [View.canon_unit_zero off00]
  simp only [View.ld_unit_zero (S := S2000x256) off00, View.ld_unit_zero (S := S1x256) off00]
  funext j
  obtain ⟨p, q, rfl⟩ : ∃ (p : Fin 2000) (q : Fin 256), j = ix2 p q := ⟨j 0, j 1, eq_ix2 j⟩
  have hb : win3_5.index t (0 : Fin 2) ≤ 9 := (idx3 t).2.2.2.2.2.2.2.2.2.2.2
  have hlt : win3_5.index t (0 : Fin 2) * 2000 + p.val < 20000 := by have := p.isLt; omega
  refine (BodyValue.pay_norm_plain (iblk3 V c 1 t) (iblk3 V c 0 t) (iblk3 V c 2 t) (iblk3 V c 3 t) (iblk3 V c 4 t) p q).trans ?_
  show _ = normed (V c main_v50) (V c main_v64) (V c main_v65) (V c main_v66) (V c main_v67) (((cfg3.win 5).blk t).view.emb (ix2 p q))
  rw [emb3_5 t p q ⟨_, hlt⟩ rfl]
  show _ = Cert.Gcn.lnAt (Cert.Gcn.hopPlain (V c main_v50) (V c main_v64) (fun q => V c main_v65 (ix2 0 q))) (fun q => V c main_v66 (ix2 0 q)) (fun q => V c main_v67 (ix2 0 q)) ⟨_, hlt⟩ q
  have h2 : (fun q : Fin 256 => iblk3 V c 2 t (ix2 0 q)) = fun q => V c main_v65 (ix2 0 q) := funext fun q => blk3_2 V c t _
  have h3 : (fun q : Fin 256 => iblk3 V c 3 t (ix2 0 q)) = fun q => V c main_v66 (ix2 0 q) := funext fun q => blk3_3 V c t _
  have h4 : (fun q : Fin 256 => iblk3 V c 4 t (ix2 0 q)) = fun q => V c main_v67 (ix2 0 q) := funext fun q => blk3_4 V c t _
  rw [h2, h3, h4]
  refine Cert.Gcn.lnAt_congr _ _ _ _ p ⟨_, hlt⟩ q fun k => ?_
  simp only [Cert.Gcn.hopPlain]
  rw [blk3_0 V c t p k ⟨_, hlt⟩ rfl, blk3_1 V c t p k ⟨_, hlt⟩ rfl]

/-- An index of the array is in point t's block iff each coordinate is in the block's range on its axis. -/
theorem mem3_5 (t : Fin cfg3.N) (i : S20000x256.Idx) :
    i ∈ ((cfg3.win 5).blk t).view.set ↔ ∀ a : Fin 2, win3_5.index t a * S2000x256.size a ≤ (i a).val ∧ (i a).val < win3_5.index t a * S2000x256.size a + S2000x256.size a := by
  show i ∈ ((View.whole main_v68).slice (win3_5.rect t)).set ↔ _
  rw [View.set_slice_whole, Rect.mem_set_unit]
  exact Iff.rfl

/-- Every index of the output is in the block of the point that owns its row block. -/
theorem cover3_5' (i : S20000x256.Idx) : ∃ t : Fin cfg3.N, (cfg3.win 5).flush t = true ∧ i ∈ ((cfg3.win 5).blk t).view.set := by
  have hi0 : (i 0).val < 20000 := (i 0).isLt
  have hi1 : (i 1).val < 256 := (i 1).isLt
  obtain ⟨t, ht⟩ := onto3 ⟨(i 0).val / 2000, by omega⟩
  have ht' : win3_5.index t (0 : Fin 2) = (i 0).val / 2000 := ht
  have e := idx3 t
  refine ⟨t, flush3_5 t, ?_⟩
  rw [mem3_5]
  intro a
  match a with
  | ⟨0, _⟩ => show win3_5.index t (0 : Fin 2) * 2000 ≤ (i 0).val ∧ (i 0).val < win3_5.index t (0 : Fin 2) * 2000 + 2000; omega
  | ⟨1, _⟩ => show win3_5.index t (1 : Fin 2) * 256 ≤ (i 1).val ∧ (i 1).val < win3_5.index t (1 : Fin 2) * 256 + 256; omega

/-- After the launch the output array is the normalised array. -/
theorem final3_5 (c : Dev nD) :
    (dat3 V c).arrAt 5 cfg3.N = normed (V c main_v50) (V c main_v64) (V c main_v65) (V c main_v66) (V c main_v67) :=
  (dat3 V c).arrAt_eq_of_cover 5 _ (fun t _ => flushed3_5 V c t) cover3_5'

end Cert.KernelIdeal.BlockValue3

end
-- ==== Proof.HostWalk.lean ====
/-
  The graph preparation, read off the kernel program's first host operations one stretch at a time. The source and
  destination index vectors (the edge list with a self loop appended per node), the edge weights with ones appended,
  the in-degree by a scatter-add, its reciprocal square root kept where the degree is positive and zero elsewhere, and
  the symmetric edge normalisation (the factor at the source node times the weight times the factor at the destination
  node) are the very operations the reference applies to the same arguments, so each buffer holds the reference's
  stage of the same name.
-/
import proofs.«175884_j32375463477769_1_alg».proof.Proof.Gen.KernelIdeal.Frame
import proofs.«175884_j32375463477769_1_alg».proof.Proof.ReadP
import Idealize.ShloMosaic.Lib.StableHlo.Run
import Idealize.ShloMosaic.Lib.ValueIdx
import Idealize.ShloMosaic.Lib.ValueLayout

set_option maxRecDepth 16384

noncomputable section

namespace Cert.KernelIdeal.HostValue

open Cert.KernelIdeal Cert.KernelIdeal.Gen Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-! ## After the first stretch: indices, weights, degree test and reciprocal square root -/

set_option maxHeartbeats 4000000 in
theorem src1 : W1 m ρ c (Proc.devRef .tc main_v3) = Cert.ReferenceIdeal.ReadP.val_main_v3 (F := Ideal) (m ((c : Thread nD τ).loc main_arg1)) := by
  dsimp only [W1, W0, hostOps0]
  after_results_simp
  first | done | rfl

set_option maxHeartbeats 4000000 in
theorem dst1 : W1 m ρ c (Proc.devRef .tc main_v6) = Cert.ReferenceIdeal.ReadP.val_main_v6 (F := Ideal) (m ((c : Thread nD τ).loc main_arg1)) := by
  dsimp only [W1, W0, hostOps0]
  after_results_simp
  first | done | rfl

set_option maxHeartbeats 4000000 in
theorem wts1 : W1 m ρ c (Proc.devRef .tc main_v8) = Cert.ReferenceIdeal.ReadP.val_main_v8 (F := Ideal) (m ((c : Thread nD τ).loc main_arg2)) := by
  dsimp only [W1, W0, hostOps0]
  after_results_simp
  first | done | rfl

set_option maxHeartbeats 4000000 in
theorem degPos1 : W1 m ρ c (Proc.devRef .tc main_v13) = Cert.ReferenceIdeal.ReadP.val_main_v14 (F := Ideal) (m ((c : Thread nD τ).loc main_arg1)) (m ((c : Thread nD τ).loc main_arg2)) := by
  dsimp only [W1, W0, hostOps0]
  after_results_simp
  first | done | rfl

set_option maxHeartbeats 4000000 in
theorem degRsqrt1 : W1 m ρ c (Proc.devRef .tc main_v14) = Cert.ReferenceIdeal.ReadP.val_main_v15 (F := Ideal) (m ((c : Thread nD τ).loc main_arg1)) (m ((c : Thread nD τ).loc main_arg2)) := by
  dsimp only [W1, W0, hostOps0]
  after_results_simp
  first | done | rfl

set_option maxHeartbeats 4000000 in
theorem zero1 : W1 m ρ c (Proc.devRef .tc main_cst_2) = Cert.ReferenceIdeal.ReadP.val_main_cst_2 (F := Ideal) := by
  dsimp only [W1, W0, hostOps0]
  after_results_simp
  first | done | rfl

/-! ## After the second stretch: the factor per node -/

theorem src2_keep : W2 m ρ c (Proc.devRef .tc main_v3) = W1 m ρ c (Proc.devRef .tc main_v3) :=
  StableHlo.after_of_forall_not_mem (b := Proc.devRef .tc main_v3) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem dst2_keep : W2 m ρ c (Proc.devRef .tc main_v6) = W1 m ρ c (Proc.devRef .tc main_v6) :=
  StableHlo.after_of_forall_not_mem (b := Proc.devRef .tc main_v6) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem wts2_keep : W2 m ρ c (Proc.devRef .tc main_v8) = W1 m ρ c (Proc.devRef .tc main_v8) :=
  StableHlo.after_of_forall_not_mem (b := Proc.devRef .tc main_v8) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The three operations of the selection, over any contents below them. -/
theorem factor_of (X : Valuation τ sig (Elt Ideal)) :
    StableHlo.after hostOps0_1 X (Proc.devRef .tc main_v15)
      = select (X (Proc.devRef .tc main_v13)) (X (Proc.devRef .tc main_v14))
          (broadcastInDim S20000 ![] bcast_S_S20000 (id (X (Proc.devRef .tc main_cst_2)))) := by
  dsimp only [hostOps0_1]
  after_results
  rfl

/-- The factor per node: the reciprocal square root of the in-degree where that is positive, zero elsewhere. -/
theorem factor2 : W2 m ρ c (Proc.devRef .tc main_v15) = Cert.ReferenceIdeal.ReadP.val_main_v16 (F := Ideal) (m ((c : Thread nD τ).loc main_arg1)) (m ((c : Thread nD τ).loc main_arg2)) := by
  show StableHlo.after hostOps0_1 (W1 m ρ c) (Proc.devRef .tc main_v15) = _
  rw [factor_of, degPos1, degRsqrt1, zero1]
  rfl

/-! ## After the third stretch: the edge normalisation, and the arguments as launched -/

theorem src3_keep : W3 m ρ c (Proc.devRef .tc main_v3) = W2 m ρ c (Proc.devRef .tc main_v3) :=
  StableHlo.after_of_forall_not_mem (b := Proc.devRef .tc main_v3) _ _ (List.forall_iff_forall_mem.mp (by
    simp only [hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem dst3_keep : W3 m ρ c (Proc.devRef .tc main_v6) = W2 m ρ c (Proc.devRef .tc main_v6) :=
  StableHlo.after_of_forall_not_mem (b := Proc.devRef .tc main_v6) _ _ (List.forall_iff_forall_mem.mp (by
    simp only [hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The source indices at the first launch's entry. -/
theorem src3 : W3 m ρ c (Proc.devRef .tc main_v3) = Cert.ReferenceIdeal.ReadP.val_main_v3 (F := Ideal) (m ((c : Thread nD τ).loc main_arg1)) :=
  (src3_keep m ρ c).trans ((src2_keep m ρ c).trans (src1 m ρ c))
/-- The destination indices at the first launch's entry. -/
theorem dst3 : W3 m ρ c (Proc.devRef .tc main_v6) = Cert.ReferenceIdeal.ReadP.val_main_v6 (F := Ideal) (m ((c : Thread nD τ).loc main_arg1)) :=
  (dst3_keep m ρ c).trans ((dst2_keep m ρ c).trans (dst1 m ρ c))

set_option maxHeartbeats 4000000 in
/-- The edge normalisation: the factor gathered at each edge's source, times the weight, times the factor gathered at
    its destination (negative indices wrapped as the reference wraps them). -/
theorem norm3 : W3 m ρ c (Proc.devRef .tc main_v31) = Cert.ReferenceIdeal.ReadP.val_main_v32 (F := Ideal) (m ((c : Thread nD τ).loc main_arg1)) (m ((c : Thread nD τ).loc main_arg2)) := by
  show StableHlo.after hostOps0_2 (W2 m ρ c) (Proc.devRef .tc main_v31) = _
  have e15 := factor2 m ρ c
  have e8 := (wts2_keep m ρ c).trans (wts1 m ρ c)
  have e3 := (src2_keep m ρ c).trans (src1 m ρ c)
  have e6 := (dst2_keep m ρ c).trans (dst1 m ρ c)
  generalize W2 m ρ c = X at e15 e8 e3 e6 ⊢
  dsimp only [hostOps0_2]
  after_results_simp
  rw [e15, e8, e3, e6]
  rfl

set_option maxHeartbeats 4000000 in
theorem arg0_at3 : W3 m ρ c (Proc.devRef .tc main_arg0) = m ((c : Thread nD τ).loc main_arg0) := by
  dsimp only [W3, W2, W1, W0, hostOps0_2, hostOps0_1, hostOps0]
  after_results_simp
  first | done | rfl

set_option maxHeartbeats 4000000 in
theorem arg3_at3 : W3 m ρ c (Proc.devRef .tc main_arg3) = m ((c : Thread nD τ).loc main_arg3) := by
  dsimp only [W3, W2, W1, W0, hostOps0_2, hostOps0_1, hostOps0]
  after_results_simp
  first | done | rfl

set_option maxHeartbeats 4000000 in
theorem arg4_at3 : W3 m ρ c (Proc.devRef .tc main_arg4) = m ((c : Thread nD τ).loc main_arg4) := by
  dsimp only [W3, W2, W1, W0, hostOps0_2, hostOps0_1, hostOps0]
  after_results_simp
  first | done | rfl

set_option maxHeartbeats 4000000 in
theorem arg5_at3 : W3 m ρ c (Proc.devRef .tc main_arg5) = m ((c : Thread nD τ).loc main_arg5) := by
  dsimp only [W3, W2, W1, W0, hostOps0_2, hostOps0_1, hostOps0]
  after_results_simp
  first | done | rfl

set_option maxHeartbeats 4000000 in
theorem arg6_at3 : W3 m ρ c (Proc.devRef .tc main_arg6) = m ((c : Thread nD τ).loc main_arg6) := by
  dsimp only [W3, W2, W1, W0, hostOps0_2, hostOps0_1, hostOps0]
  after_results_simp
  first | done | rfl

set_option maxHeartbeats 4000000 in
theorem arg7_at3 : W3 m ρ c (Proc.devRef .tc main_arg7) = m ((c : Thread nD τ).loc main_arg7) := by
  dsimp only [W3, W2, W1, W0, hostOps0_2, hostOps0_1, hostOps0]
  after_results_simp
  first | done | rfl

set_option maxHeartbeats 4000000 in
theorem arg8_at3 : W3 m ρ c (Proc.devRef .tc main_arg8) = m ((c : Thread nD τ).loc main_arg8) := by
  dsimp only [W3, W2, W1, W0, hostOps0_2, hostOps0_1, hostOps0]
  after_results_simp
  first | done | rfl

set_option maxHeartbeats 4000000 in
theorem arg9_at3 : W3 m ρ c (Proc.devRef .tc main_arg9) = m ((c : Thread nD τ).loc main_arg9) := by
  dsimp only [W3, W2, W1, W0, hostOps0_2, hostOps0_1, hostOps0]
  after_results_simp
  first | done | rfl

set_option maxHeartbeats 4000000 in
theorem arg10_at3 : W3 m ρ c (Proc.devRef .tc main_arg10) = m ((c : Thread nD τ).loc main_arg10) := by
  dsimp only [W3, W2, W1, W0, hostOps0_2, hostOps0_1, hostOps0]
  after_results_simp
  first | done | rfl

set_option maxHeartbeats 4000000 in
theorem arg11_at3 : W3 m ρ c (Proc.devRef .tc main_arg11) = m ((c : Thread nD τ).loc main_arg11) := by
  dsimp only [W3, W2, W1, W0, hostOps0_2, hostOps0_1, hostOps0]
  after_results_simp
  first | done | rfl

set_option maxHeartbeats 4000000 in
theorem arg12_at3 : W3 m ρ c (Proc.devRef .tc main_arg12) = m ((c : Thread nD τ).loc main_arg12) := by
  dsimp only [W3, W2, W1, W0, hostOps0_2, hostOps0_1, hostOps0]
  after_results_simp
  first | done | rfl

set_option maxHeartbeats 4000000 in
theorem arg8_at2 : W2 m ρ c (Proc.devRef .tc main_arg8) = m ((c : Thread nD τ).loc main_arg8) := by
  dsimp only [W2, W1, W0, hostOps0_1, hostOps0]
  after_results_simp
  first | done | rfl

/-- The residual bias enters the first launch as a 1 × 256 row: entry (0, q) of the reshaped array is entry q of the vector. -/
theorem biasRes_of (X : Valuation τ sig (Elt Ideal)) (q : Fin 256) :
    (StableHlo.after hostOps0_2 X (Proc.devRef .tc main_v32) : S1x256.Idx → EReal) (ix2 0 q)
      = (X (Proc.devRef .tc main_arg8) : S256.Idx → EReal) (ix1 q) := by
  dsimp only [hostOps0_2]
  after_results
  exact shapeCast_a_1a_apply _ _ 0 q

/-! ## The later stretches, over any contents below them -/

set_option maxHeartbeats 4000000 in
/-- The first aggregation: each edge's message is its normalisation times the source node's row of the projected
    features; messages are summed at their destination nodes. Stated over any contents in which the projected
    features, the normalisation and the two index vectors are the reference's. -/
theorem agg1_of (X : Valuation τ sig (Elt Ideal)) (x0 : (⟨Cert.ReferenceIdeal.S20000x128, .f32⟩ : BufTy).Contents (Elt Ideal)) (x1 : (⟨Cert.ReferenceIdeal.S2x320000, .i32⟩ : BufTy).Contents (Elt Ideal)) (x2 : (⟨Cert.ReferenceIdeal.S320000, .f32⟩ : BufTy).Contents (Elt Ideal)) (x3 : (⟨Cert.ReferenceIdeal.S128x256, .f32⟩ : BufTy).Contents (Elt Ideal))
    (h9 : X (Proc.devRef .tc main_v33_0) = Cert.ReferenceIdeal.ReadP.val_main_v9 (F := Ideal) x0 x3)
    (h31 : X (Proc.devRef .tc main_v31) = Cert.ReferenceIdeal.ReadP.val_main_v32 (F := Ideal) x1 x2)
    (h3 : X (Proc.devRef .tc main_v3) = Cert.ReferenceIdeal.ReadP.val_main_v3 (F := Ideal) x1)
    (h6 : X (Proc.devRef .tc main_v6) = Cert.ReferenceIdeal.ReadP.val_main_v6 (F := Ideal) x1) :
    StableHlo.after hostOps1 X (Proc.devRef .tc main_v46) = Cert.ReferenceIdeal.ReadP.val_main_v45 (F := Ideal) x0 x1 x2 x3 := by
  dsimp only [hostOps1]
  after_results_simp
  rw [h9, h31, h3, h6]
  rfl

/-- The first hop's bias as a 1 × 256 row. -/
theorem bias1_of (X : Valuation τ sig (Elt Ideal)) (q : Fin 256) :
    (StableHlo.after hostOps1 X (Proc.devRef .tc main_v47) : S1x256.Idx → EReal) (ix2 0 q)
      = (X (Proc.devRef .tc main_arg4) : S256.Idx → EReal) (ix1 q) := by
  dsimp only [hostOps1]
  after_results
  exact shapeCast_a_1a_apply _ _ 0 q

/-- The first hop's scale as a 1 × 256 row. -/
theorem scale1_of (X : Valuation τ sig (Elt Ideal)) (q : Fin 256) :
    (StableHlo.after hostOps1 X (Proc.devRef .tc main_v48) : S1x256.Idx → EReal) (ix2 0 q)
      = (X (Proc.devRef .tc main_arg9) : S256.Idx → EReal) (ix1 q) := by
  dsimp only [hostOps1]
  after_results
  exact shapeCast_a_1a_apply _ _ 0 q

/-- The first hop's shift as a 1 × 256 row. -/
theorem shift1_of (X : Valuation τ sig (Elt Ideal)) (q : Fin 256) :
    (StableHlo.after hostOps1 X (Proc.devRef .tc main_v49) : S1x256.Idx → EReal) (ix2 0 q)
      = (X (Proc.devRef .tc main_arg10) : S256.Idx → EReal) (ix1 q) := by
  dsimp only [hostOps1]
  after_results
  exact shapeCast_a_1a_apply _ _ 0 q

set_option maxHeartbeats 4000000 in
/-- The second aggregation, the same operations on the second projection. -/
theorem agg2_of (X : Valuation τ sig (Elt Ideal)) (x0 : (⟨Cert.ReferenceIdeal.S20000x128, .f32⟩ : BufTy).Contents (Elt Ideal)) (x1 : (⟨Cert.ReferenceIdeal.S2x320000, .i32⟩ : BufTy).Contents (Elt Ideal)) (x2 : (⟨Cert.ReferenceIdeal.S320000, .f32⟩ : BufTy).Contents (Elt Ideal)) (x3 : (⟨Cert.ReferenceIdeal.S128x256, .f32⟩ : BufTy).Contents (Elt Ideal)) (x4 : (⟨Cert.ReferenceIdeal.S256, .f32⟩ : BufTy).Contents (Elt Ideal)) (x5 : (⟨Cert.ReferenceIdeal.S256x256, .f32⟩ : BufTy).Contents (Elt Ideal)) (x7 : (⟨Cert.ReferenceIdeal.S128x256, .f32⟩ : BufTy).Contents (Elt Ideal)) (x8 x9 x10 : (⟨Cert.ReferenceIdeal.S256, .f32⟩ : BufTy).Contents (Elt Ideal))
    (h79 : X (Proc.devRef .tc main_v51) = Cert.ReferenceIdeal.ReadP.val_main_v79 (F := Ideal) x0 x1 x2 x3 x4 x5 x7 x8 x9 x10)
    (h31 : X (Proc.devRef .tc main_v31) = Cert.ReferenceIdeal.ReadP.val_main_v102 (F := Ideal) x1 x2)
    (h3 : X (Proc.devRef .tc main_v3) = Cert.ReferenceIdeal.ReadP.val_main_v3 (F := Ideal) x1)
    (h6 : X (Proc.devRef .tc main_v6) = Cert.ReferenceIdeal.ReadP.val_main_v6 (F := Ideal) x1) :
    StableHlo.after hostOps3 X (Proc.devRef .tc main_v64) = Cert.ReferenceIdeal.ReadP.val_main_v115 (F := Ideal) x0 x1 x2 x3 x4 x5 x7 x8 x9 x10 := by
  dsimp only [hostOps3]
  after_results_simp
  rw [h79, h31, h3, h6]
  rfl

/-- The second hop's bias as a 1 × 256 row. -/
theorem bias2_of (X : Valuation τ sig (Elt Ideal)) (q : Fin 256) :
    (StableHlo.after hostOps3 X (Proc.devRef .tc main_v65) : S1x256.Idx → EReal) (ix2 0 q)
      = (X (Proc.devRef .tc main_arg6) : S256.Idx → EReal) (ix1 q) := by
  dsimp only [hostOps3]
  after_results
  exact shapeCast_a_1a_apply _ _ 0 q

/-- The second hop's scale as a 1 × 256 row. -/
theorem scale2_of (X : Valuation τ sig (Elt Ideal)) (q : Fin 256) :
    (StableHlo.after hostOps3 X (Proc.devRef .tc main_v66) : S1x256.Idx → EReal) (ix2 0 q)
      = (X (Proc.devRef .tc main_arg11) : S256.Idx → EReal) (ix1 q) := by
  dsimp only [hostOps3]
  after_results
  exact shapeCast_a_1a_apply _ _ 0 q

/-- The second hop's shift as a 1 × 256 row. -/
theorem shift2_of (X : Valuation τ sig (Elt Ideal)) (q : Fin 256) :
    (StableHlo.after hostOps3 X (Proc.devRef .tc main_v67) : S1x256.Idx → EReal) (ix2 0 q)
      = (X (Proc.devRef .tc main_arg12) : S256.Idx → EReal) (ix1 q) := by
  dsimp only [hostOps3]
  after_results
  exact shapeCast_a_1a_apply _ _ 0 q

theorem res5_keep : W5 m ρ c (Proc.devRef .tc main_v33_1) = W4 m ρ c (Proc.devRef .tc main_v33_1) :=
  StableHlo.after_of_forall_not_mem (b := Proc.devRef .tc main_v33_1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem v50_8_keep : W8 m ρ c (Proc.devRef .tc main_v50) = W7 m ρ c (Proc.devRef .tc main_v50) :=
  StableHlo.after_of_forall_not_mem (b := Proc.devRef .tc main_v50) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem arg4_5_keep : W5 m ρ c (Proc.devRef .tc main_arg4) = W4 m ρ c (Proc.devRef .tc main_arg4) :=
  StableHlo.after_of_forall_not_mem (b := Proc.devRef .tc main_arg4) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem arg9_5_keep : W5 m ρ c (Proc.devRef .tc main_arg9) = W4 m ρ c (Proc.devRef .tc main_arg9) :=
  StableHlo.after_of_forall_not_mem (b := Proc.devRef .tc main_arg9) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem arg10_5_keep : W5 m ρ c (Proc.devRef .tc main_arg10) = W4 m ρ c (Proc.devRef .tc main_arg10) :=
  StableHlo.after_of_forall_not_mem (b := Proc.devRef .tc main_arg10) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem arg5_5_keep : W5 m ρ c (Proc.devRef .tc main_arg5) = W4 m ρ c (Proc.devRef .tc main_arg5) :=
  StableHlo.after_of_forall_not_mem (b := Proc.devRef .tc main_arg5) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem arg6_5_keep : W5 m ρ c (Proc.devRef .tc main_arg6) = W4 m ρ c (Proc.devRef .tc main_arg6) :=
  StableHlo.after_of_forall_not_mem (b := Proc.devRef .tc main_arg6) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem arg11_5_keep : W5 m ρ c (Proc.devRef .tc main_arg11) = W4 m ρ c (Proc.devRef .tc main_arg11) :=
  StableHlo.after_of_forall_not_mem (b := Proc.devRef .tc main_arg11) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem arg12_5_keep : W5 m ρ c (Proc.devRef .tc main_arg12) = W4 m ρ c (Proc.devRef .tc main_arg12) :=
  StableHlo.after_of_forall_not_mem (b := Proc.devRef .tc main_arg12) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem src5_keep : W5 m ρ c (Proc.devRef .tc main_v3) = W4 m ρ c (Proc.devRef .tc main_v3) :=
  StableHlo.after_of_forall_not_mem (b := Proc.devRef .tc main_v3) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem dst5_keep : W5 m ρ c (Proc.devRef .tc main_v6) = W4 m ρ c (Proc.devRef .tc main_v6) :=
  StableHlo.after_of_forall_not_mem (b := Proc.devRef .tc main_v6) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem norm5_keep : W5 m ρ c (Proc.devRef .tc main_v31) = W4 m ρ c (Proc.devRef .tc main_v31) :=
  StableHlo.after_of_forall_not_mem (b := Proc.devRef .tc main_v31) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

end Cert.KernelIdeal.HostValue

end
-- ==== Proof.RefRead.lean ====
/-
  The reference, read against the shared specification: its matrix products are sums over the contracted axis, each
  hop's input to the normalisation is the residual stream plus the (rectified, in the first hop) aggregated messages
  plus bias, and its row normalisation is mean, variance, reciprocal square root, scale and shift.
-/
import proofs.«175884_j32375463477769_1_alg».proof.Proof.ReadP
import proofs.«175884_j32375463477769_1_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.ValueIdx

theorem dot128 (x : (⟨S20000x128, .f32⟩ : BufTy).Contents (Elt Ideal)) (w : (⟨S128x256, .f32⟩ : BufTy).Contents (Elt Ideal)) :
    val_main_v9 (F := Ideal) x w = Cert.Gcn.mm x w := by
  funext i
  rw [val_main_v9_apply]
  show _ = Cert.Gcn.mmAt x w (i 0) (i 1)
  unfold Cert.Gcn.mmAt
  refine Finset.sum_congr rfl fun k _ => ?_
  have el : lidx_main_v9 i k = ix2 (i 0) k := funext fun a => Fin.ext (by
    match a with
    | ⟨0, _⟩ => rfl
    | ⟨1, _⟩ => rfl)
  have er : ridx_main_v9 i k = ix2 k (i 1) := funext fun a => Fin.ext (by
    match a with
    | ⟨0, _⟩ => rfl
    | ⟨1, _⟩ => rfl)
  rw [el, er]
  rfl

theorem dot128' (x : (⟨S20000x128, .f32⟩ : BufTy).Contents (Elt Ideal)) (w : (⟨S128x256, .f32⟩ : BufTy).Contents (Elt Ideal)) :
    val_main_v50 (F := Ideal) x w = Cert.Gcn.mm x w := dot128 x w

theorem dot256 (h : FVec Ideal S20000x256 .f32) (w : FVec Ideal S256x256 .f32) :
    Host.dotGeneral (F := Ideal) dot_S20000x256_S256x256_S20000x256_1_0_0_1_n_n none h w = Cert.Gcn.mm h w := by
  funext i
  show _ = Cert.Gcn.mmAt h w (i 0) (i 1)
  unfold Cert.Gcn.mmAt
  simp only [Host.dotGeneral]
  rw [Ideal.dotGeneral_apply, ← Equiv.sum_comp (ValueIdx.contrEquiv1 dot_S20000x256_S256x256_S20000x256_1_0_0_1_n_n 256 rfl rfl).symm]
  refine Finset.sum_congr rfl fun k _ => ?_
  have hk := ValueIdx.contrEquiv1_symm_val dot_S20000x256_S256x256_S20000x256_1_0_0_1_n_n 256 rfl rfl k
  have el : dot_S20000x256_S256x256_S20000x256_1_0_0_1_n_n.lhsIdx i ((ValueIdx.contrEquiv1 dot_S20000x256_S256x256_S20000x256_1_0_0_1_n_n 256 rfl rfl).symm k) = ix2 (i 0) k := funext fun a => Fin.ext (by
    match a with
    | ⟨0, _⟩ => exact lhs_main_v79_0 _ _
    | ⟨1, _⟩ => exact (lhs_main_v79_1 _ _).trans hk)
  have er : dot_S20000x256_S256x256_S20000x256_1_0_0_1_n_n.rhsIdx i ((ValueIdx.contrEquiv1 dot_S20000x256_S256x256_S20000x256_1_0_0_1_n_n 256 rfl rfl).symm k) = ix2 k (i 1) := funext fun a => Fin.ext (by
    match a with
    | ⟨0, _⟩ => exact (rhs_main_v79_0 _ _).trans hk
    | ⟨1, _⟩ => exact rhs_main_v79_1 _ _)
  rw [el, er]
  rfl

theorem hop1 (x0 : (⟨S20000x128, .f32⟩ : BufTy).Contents (Elt Ideal)) (x1 : (⟨S2x320000, .i32⟩ : BufTy).Contents (Elt Ideal)) (x2 : (⟨S320000, .f32⟩ : BufTy).Contents (Elt Ideal)) (x3 : (⟨S128x256, .f32⟩ : BufTy).Contents (Elt Ideal)) (x4 : (⟨S256, .f32⟩ : BufTy).Contents (Elt Ideal)) (x7 : (⟨S128x256, .f32⟩ : BufTy).Contents (Elt Ideal)) (x8 : (⟨S256, .f32⟩ : BufTy).Contents (Elt Ideal)) :
    val_main_v54 (F := Ideal) x0 x1 x2 x3 x4 x7 x8
      = Cert.Gcn.hopRelu (Cert.Gcn.addRow (val_main_v50 (F := Ideal) x0 x7) (fun c => x8 (ix1 c)))
          (val_main_v45 (F := Ideal) x0 x1 x2 x3) (fun c => x4 (ix1 c)) := by
  funext i
  rw [val_main_v54_apply, val_main_v53_apply, val_main_v52_apply, val_main_v51_apply, val_main_v49_apply,
    val_main_v48_apply, val_main_v47_apply, val_main_v46_apply, val_main_call1_v0_apply, val_main_call1_cst_apply]
  have e8 : idx_main_v51 (idx_main_v52 i) = ix1 (i 1) := funext fun a => Fin.ext (by
    match a with
    | ⟨0, _⟩ => rfl)
  have e4 : idx_main_v46 (idx_main_v47 i) = ix1 (i 1) := funext fun a => Fin.ext (by
    match a with
    | ⟨0, _⟩ => rfl)
  rw [e8, e4]
  rfl

theorem norm1 (x0 : (⟨S20000x128, .f32⟩ : BufTy).Contents (Elt Ideal)) (x1 : (⟨S2x320000, .i32⟩ : BufTy).Contents (Elt Ideal)) (x2 : (⟨S320000, .f32⟩ : BufTy).Contents (Elt Ideal)) (x3 : (⟨S128x256, .f32⟩ : BufTy).Contents (Elt Ideal)) (x4 : (⟨S256, .f32⟩ : BufTy).Contents (Elt Ideal)) (x7 : (⟨S128x256, .f32⟩ : BufTy).Contents (Elt Ideal)) (x8 x9 x10 : (⟨S256, .f32⟩ : BufTy).Contents (Elt Ideal)) :
    val_main_v78 (F := Ideal) x0 x1 x2 x3 x4 x7 x8 x9 x10
      = Cert.Gcn.ln (val_main_v54 (F := Ideal) x0 x1 x2 x3 x4 x7 x8) x9 x10 := by
  -- the row mean: the row sum starts from the zero word, which is the real 0
  have hmean : ∀ j : S20000x1.Idx, val_main_v58 (F := Ideal) x0 x1 x2 x3 x4 x7 x8 j
      = Cert.Gcn.rowMean (val_main_v54 (F := Ideal) x0 x1 x2 x3 x4 x7 x8) (j 0) := by
    intro j
    rw [val_main_v58_apply, val_main_v57_apply, val_main_cst_10_apply, val_main_v56_apply, val_main_v55_apply,
      val_main_cst_9_apply]
    simp only [Ideal.hostDivf_def, Ideal.ofBits_def, Ideal.ofBits_zero_f32, zero_add]
    unfold Cert.Gcn.rowMean
    refine congrArg (Ideal.div · Cert.Gcn.c256) (Finset.sum_congr rfl fun k _ => congrArg _ ?_)
    exact funext fun a => Fin.ext (by
      match a with
      | ⟨0, _⟩ => rfl
      | ⟨1, _⟩ => rfl)
  -- the deviation of an entry from its row's mean
  have hdev : ∀ j : S20000x256.Idx, val_main_v60 (F := Ideal) x0 x1 x2 x3 x4 x7 x8 j
      = val_main_v54 (F := Ideal) x0 x1 x2 x3 x4 x7 x8 j - Cert.Gcn.rowMean (val_main_v54 (F := Ideal) x0 x1 x2 x3 x4 x7 x8) (j 0) := by
    intro j
    rw [val_main_v60_apply, val_main_v59_apply, hmean]
    rfl
  -- the row variance: the mean of the squared deviations
  have hvar : ∀ j : S20000x1.Idx, val_main_v65 (F := Ideal) x0 x1 x2 x3 x4 x7 x8 j
      = Cert.Gcn.rowVar (val_main_v54 (F := Ideal) x0 x1 x2 x3 x4 x7 x8) (j 0) := by
    intro j
    rw [val_main_v65_apply, val_main_v64_apply, val_main_cst_12_apply, val_main_v63_apply, val_main_v62_apply,
      val_main_cst_11_apply]
    simp only [Ideal.hostDivf_def, Ideal.ofBits_def, Ideal.ofBits_zero_f32, zero_add]
    unfold Cert.Gcn.rowVar
    refine congrArg (Ideal.div · Cert.Gcn.c256) (Finset.sum_congr rfl fun k _ => ?_)
    rw [val_main_v61_apply, hdev]
    have e : idx_main_v62 (idx_main_v63 j) k = ix2 (j 0) k := funext fun a => Fin.ext (by
      match a with
      | ⟨0, _⟩ => rfl
      | ⟨1, _⟩ => rfl)
    rw [e]
    rfl
  funext i
  obtain ⟨r, c, rfl⟩ : ∃ r c, i = ix2 r c := ⟨i 0, i 1, eq_ix2 i⟩
  rw [val_main_v78_apply, val_main_v77_apply, val_main_v76_apply, val_main_v75_apply, val_main_v74_apply,
    val_main_v73_apply, val_main_v72_apply, val_main_v71_apply, val_main_v70_apply, val_main_v69_apply,
    val_main_v68_apply, val_main_cst_13_apply, hvar, val_main_v67_apply, val_main_v66_apply, hmean]
  have eg : idx_main_v73 (idx_main_v74 (ix2 r c)) = ix1 c := funext fun a => Fin.ext (by
    match a with
    | ⟨0, _⟩ => rfl)
  have eb : idx_main_v76 (idx_main_v77 (ix2 r c)) = ix1 c := funext fun a => Fin.ext (by
    match a with
    | ⟨0, _⟩ => rfl)
  rw [eg, eb]
  rfl

theorem hop2 (x0 : (⟨S20000x128, .f32⟩ : BufTy).Contents (Elt Ideal)) (x1 : (⟨S2x320000, .i32⟩ : BufTy).Contents (Elt Ideal)) (x2 : (⟨S320000, .f32⟩ : BufTy).Contents (Elt Ideal)) (x3 : (⟨S128x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S128x256, .f32⟩ : BufTy).Contents (Elt Ideal)) (x8 x9 x10 : (⟨S256, .f32⟩ : BufTy).Contents (Elt Ideal)) :
    val_main_v119 (F := Ideal) x0 x1 x2 x3 x4 x5 x6 x7 x8 x9 x10
      = Cert.Gcn.hopPlain (val_main_v78 (F := Ideal) x0 x1 x2 x3 x4 x7 x8 x9 x10)
          (val_main_v115 (F := Ideal) x0 x1 x2 x3 x4 x5 x7 x8 x9 x10) (fun c => x6 (ix1 c)) := by
  funext i
  rw [val_main_v119_apply, val_main_v118_apply, val_main_v117_apply, val_main_v116_apply]
  have e6 : idx_main_v116 (idx_main_v117 i) = ix1 (i 1) := funext fun a => Fin.ext (by
    match a with
    | ⟨0, _⟩ => rfl)
  rw [e6]
  rfl

theorem norm2 (x0 : (⟨S20000x128, .f32⟩ : BufTy).Contents (Elt Ideal)) (x1 : (⟨S2x320000, .i32⟩ : BufTy).Contents (Elt Ideal)) (x2 : (⟨S320000, .f32⟩ : BufTy).Contents (Elt Ideal)) (x3 : (⟨S128x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S128x256, .f32⟩ : BufTy).Contents (Elt Ideal)) (x8 x9 x10 x11 x12 : (⟨S256, .f32⟩ : BufTy).Contents (Elt Ideal)) :
    val_main_v143 (F := Ideal) x0 x1 x2 x3 x4 x5 x6 x7 x8 x9 x10 x11 x12
      = Cert.Gcn.ln (val_main_v119 (F := Ideal) x0 x1 x2 x3 x4 x5 x6 x7 x8 x9 x10) x11 x12 := by
  -- the row mean: the row sum starts from the zero word, which is the real 0
  have hmean : ∀ j : S20000x1.Idx, val_main_v123 (F := Ideal) x0 x1 x2 x3 x4 x5 x6 x7 x8 x9 x10 j
      = Cert.Gcn.rowMean (val_main_v119 (F := Ideal) x0 x1 x2 x3 x4 x5 x6 x7 x8 x9 x10) (j 0) := by
    intro j
    rw [val_main_v123_apply, val_main_v122_apply, val_main_cst_25_apply, val_main_v121_apply, val_main_v120_apply,
      val_main_cst_24_apply]
    simp only [Ideal.hostDivf_def, Ideal.ofBits_def, Ideal.ofBits_zero_f32, zero_add]
    unfold Cert.Gcn.rowMean
    refine congrArg (Ideal.div · Cert.Gcn.c256) (Finset.sum_congr rfl fun k _ => congrArg _ ?_)
    exact funext fun a => Fin.ext (by
      match a with
      | ⟨0, _⟩ => rfl
      | ⟨1, _⟩ => rfl)
  -- the deviation of an entry from its row's mean
  have hdev : ∀ j : S20000x256.Idx, val_main_v125 (F := Ideal) x0 x1 x2 x3 x4 x5 x6 x7 x8 x9 x10 j
      = val_main_v119 (F := Ideal) x0 x1 x2 x3 x4 x5 x6 x7 x8 x9 x10 j - Cert.Gcn.rowMean (val_main_v119 (F := Ideal) x0 x1 x2 x3 x4 x5 x6 x7 x8 x9 x10) (j 0) := by
    intro j
    rw [val_main_v125_apply, val_main_v124_apply, hmean]
    rfl
  -- the row variance: the mean of the squared deviations
  have hvar : ∀ j : S20000x1.Idx, val_main_v130 (F := Ideal) x0 x1 x2 x3 x4 x5 x6 x7 x8 x9 x10 j
      = Cert.Gcn.rowVar (val_main_v119 (F := Ideal) x0 x1 x2 x3 x4 x5 x6 x7 x8 x9 x10) (j 0) := by
    intro j
    rw [val_main_v130_apply, val_main_v129_apply, val_main_cst_27_apply, val_main_v128_apply, val_main_v127_apply,
      val_main_cst_26_apply]
    simp only [Ideal.hostDivf_def, Ideal.ofBits_def, Ideal.ofBits_zero_f32, zero_add]
    unfold Cert.Gcn.rowVar
    refine congrArg (Ideal.div · Cert.Gcn.c256) (Finset.sum_congr rfl fun k _ => ?_)
    rw [val_main_v126_apply, hdev]
    have e : idx_main_v127 (idx_main_v128 j) k = ix2 (j 0) k := funext fun a => Fin.ext (by
      match a with
      | ⟨0, _⟩ => rfl
      | ⟨1, _⟩ => rfl)
    rw [e]
    rfl
  funext i
  obtain ⟨r, c, rfl⟩ : ∃ r c, i = ix2 r c := ⟨i 0, i 1, eq_ix2 i⟩
  rw [val_main_v143_apply, val_main_v142_apply, val_main_v141_apply, val_main_v140_apply, val_main_v139_apply,
    val_main_v138_apply, val_main_v137_apply, val_main_v136_apply, val_main_v135_apply, val_main_v134_apply,
    val_main_v133_apply, val_main_cst_28_apply, hvar, val_main_v132_apply, val_main_v131_apply, hmean]
  have eg : idx_main_v138 (idx_main_v139 (ix2 r c)) = ix1 c := funext fun a => Fin.ext (by
    match a with
    | ⟨0, _⟩ => rfl)
  have eb : idx_main_v141 (idx_main_v142 (ix2 r c)) = ix1 c := funext fun a => Fin.ext (by
    match a with
    | ⟨0, _⟩ => rfl)
  rw [eg, eb]
  rfl

end Cert.ReferenceIdeal.RefValue

end
-- ==== Proof.Joined.lean ====
/-
  The idealized kernel's result, launch by launch, against the reference's stages. The first launch leaves the two
  projections of the node features; the host aggregates the first over the edges; the second launch adds bias,
  rectifies, adds the residual projection and normalises the rows — the reference's first hop; the third launch
  projects that; the host aggregates again; the last launch adds bias and stream and normalises — the reference's
  result. At each boundary the buffer the next step reads holds the reference's stage of the same arguments.
-/
import proofs.«175884_j32375463477769_1_alg».proof.Proof.Gen.KernelIdeal.Frame
import proofs.«175884_j32375463477769_1_alg».proof.Proof.Spec
import proofs.«175884_j32375463477769_1_alg».proof.Proof.Blocks0
import proofs.«175884_j32375463477769_1_alg».proof.Proof.Blocks1
import proofs.«175884_j32375463477769_1_alg».proof.Proof.Blocks2
import proofs.«175884_j32375463477769_1_alg».proof.Proof.Blocks3
import proofs.«175884_j32375463477769_1_alg».proof.Proof.HostWalk
import proofs.«175884_j32375463477769_1_alg».proof.Proof.ReadP
import proofs.«175884_j32375463477769_1_alg».proof.Proof.RefRead
import Idealize.ShloMosaic.Lib.Pipeline.Value
import Idealize.ShloMosaic.Lib.ValueIdx

set_option maxRecDepth 16384

noncomputable section

namespace Cert.KernelIdeal.Joined

open Cert.KernelIdeal Cert.KernelIdeal.Gen Idealize.ShloMosaic Idealize.ShloMosaic.TcCoe Idealize.SL.Sem Idealize.ShloMosaic.StableHlo Idealize.ShloMosaic.ValueIdx
open Cert.KernelIdeal.HostValue
open Idealize.ShloMosaic.Pipeline (Dat)

variable (m : (ℓ : Loc nD τ sig) → Buf (Elt Ideal) ℓ) (ρ : Dev nD → PrngReg) (c : Dev nD)

/-! ## The first launch: the two projections -/

/-- The first projection is the reference's product of the features with the first weights. -/
theorem proj1 : W4 m ρ c (Proc.devRef .tc main_v33_0) = Cert.ReferenceIdeal.ReadP.val_main_v9 (F := Ideal) (m ((c : Thread nD τ).loc main_arg0)) (m ((c : Thread nD τ).loc main_arg3)) :=
  (W4_arr m ρ c 4).trans ((BlockValue.final0_4 (V3 m ρ) c).trans (by
    show Cert.Gcn.mm (W3 m ρ c (Proc.devRef .tc main_arg0)) (W3 m ρ c (Proc.devRef .tc main_arg3)) = _
    rw [arg0_at3, arg3_at3]
    exact (Cert.ReferenceIdeal.RefValue.dot128 _ _).symm))

/-- The residual projection: the product with the residual weights plus the bias row. -/
theorem resid4 : W4 m ρ c (Proc.devRef .tc main_v33_1)
    = Cert.Gcn.addRow (Cert.ReferenceIdeal.ReadP.val_main_v50 (F := Ideal) (m ((c : Thread nD τ).loc main_arg0)) (m ((c : Thread nD τ).loc main_arg7))) (fun q => (m ((c : Thread nD τ).loc main_arg8)) (ix1 q)) :=
  (W4_arr m ρ c 5).trans ((BlockValue.final0_5 (V3 m ρ) c).trans (by
    show Cert.Gcn.addRow (Cert.Gcn.mm (W3 m ρ c (Proc.devRef .tc main_arg0)) (W3 m ρ c (Proc.devRef .tc main_arg7)))
        (fun q => (W3 m ρ c (Proc.devRef .tc main_v32) : S1x256.Idx → EReal) (ix2 0 q)) = _
    have hb : (fun q : Fin 256 => (W3 m ρ c (Proc.devRef .tc main_v32) : S1x256.Idx → EReal) (ix2 0 q)) = fun q => (m ((c : Thread nD τ).loc main_arg8)) (ix1 q) :=
      funext fun q => (biasRes_of (W2 m ρ c) q).trans (congrFun (arg8_at2 m ρ c) _)
    rw [arg0_at3, arg7_at3, hb, ← Cert.ReferenceIdeal.RefValue.dot128']))

/-! ## The first aggregation and the first hop -/

theorem norm4 : W4 m ρ c (Proc.devRef .tc main_v31) = Cert.ReferenceIdeal.ReadP.val_main_v32 (F := Ideal) (m ((c : Thread nD τ).loc main_arg1)) (m ((c : Thread nD τ).loc main_arg2)) :=
  (W4_of_ne m ρ c main_v31 (by decide)).trans (norm3 m ρ c)
theorem src4 : W4 m ρ c (Proc.devRef .tc main_v3) = Cert.ReferenceIdeal.ReadP.val_main_v3 (F := Ideal) (m ((c : Thread nD τ).loc main_arg1)) :=
  (W4_of_ne m ρ c main_v3 (by decide)).trans (src3 m ρ c)
theorem dst4 : W4 m ρ c (Proc.devRef .tc main_v6) = Cert.ReferenceIdeal.ReadP.val_main_v6 (F := Ideal) (m ((c : Thread nD τ).loc main_arg1)) :=
  (W4_of_ne m ρ c main_v6 (by decide)).trans (dst3 m ρ c)
theorem arg4_at4 : W4 m ρ c (Proc.devRef .tc main_arg4) = (m ((c : Thread nD τ).loc main_arg4)) := (W4_of_ne m ρ c main_arg4 (by decide)).trans (arg4_at3 m ρ c)
theorem arg9_at4 : W4 m ρ c (Proc.devRef .tc main_arg9) = (m ((c : Thread nD τ).loc main_arg9)) := (W4_of_ne m ρ c main_arg9 (by decide)).trans (arg9_at3 m ρ c)
theorem arg10_at4 : W4 m ρ c (Proc.devRef .tc main_arg10) = (m ((c : Thread nD τ).loc main_arg10)) := (W4_of_ne m ρ c main_arg10 (by decide)).trans (arg10_at3 m ρ c)
theorem arg5_at4 : W4 m ρ c (Proc.devRef .tc main_arg5) = (m ((c : Thread nD τ).loc main_arg5)) := (W4_of_ne m ρ c main_arg5 (by decide)).trans (arg5_at3 m ρ c)
theorem arg6_at4 : W4 m ρ c (Proc.devRef .tc main_arg6) = (m ((c : Thread nD τ).loc main_arg6)) := (W4_of_ne m ρ c main_arg6 (by decide)).trans (arg6_at3 m ρ c)
theorem arg11_at4 : W4 m ρ c (Proc.devRef .tc main_arg11) = (m ((c : Thread nD τ).loc main_arg11)) := (W4_of_ne m ρ c main_arg11 (by decide)).trans (arg11_at3 m ρ c)
theorem arg12_at4 : W4 m ρ c (Proc.devRef .tc main_arg12) = (m ((c : Thread nD τ).loc main_arg12)) := (W4_of_ne m ρ c main_arg12 (by decide)).trans (arg12_at3 m ρ c)

/-- The aggregated messages of the first hop are the reference's. -/
theorem agg1 : W5 m ρ c (Proc.devRef .tc main_v46) = Cert.ReferenceIdeal.ReadP.val_main_v45 (F := Ideal) (m ((c : Thread nD τ).loc main_arg0)) (m ((c : Thread nD τ).loc main_arg1)) (m ((c : Thread nD τ).loc main_arg2)) (m ((c : Thread nD τ).loc main_arg3)) :=
  agg1_of (W4 m ρ c) (m ((c : Thread nD τ).loc main_arg0)) (m ((c : Thread nD τ).loc main_arg1)) (m ((c : Thread nD τ).loc main_arg2)) (m ((c : Thread nD τ).loc main_arg3)) (proj1 m ρ c) (norm4 m ρ c) (src4 m ρ c) (dst4 m ρ c)

/-- The first hop's output is the reference's stage after its first normalisation. -/
theorem hop1out : W6 m ρ c (Proc.devRef .tc main_v50) = Cert.ReferenceIdeal.ReadP.val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10)) :=
  (W6_arr m ρ c 5).trans ((BlockValue1.final1_5 (V5 m ρ) c).trans (by
    rw [Cert.ReferenceIdeal.RefValue.norm1, Cert.ReferenceIdeal.RefValue.hop1]
    show BlockValue1.normed (W5 m ρ c (Proc.devRef .tc main_v33_1)) (W5 m ρ c (Proc.devRef .tc main_v46))
        (W5 m ρ c (Proc.devRef .tc main_v47)) (W5 m ρ c (Proc.devRef .tc main_v48)) (W5 m ρ c (Proc.devRef .tc main_v49)) = _
    have hbias : (fun q : Fin 256 => (W5 m ρ c (Proc.devRef .tc main_v47) : S1x256.Idx → EReal) (ix2 0 q)) = fun q => (m ((c : Thread nD τ).loc main_arg4)) (ix1 q) :=
      funext fun q => (bias1_of (W4 m ρ c) q).trans (congrFun (arg4_at4 m ρ c) _)
    have hscale : (fun q : Fin 256 => (W5 m ρ c (Proc.devRef .tc main_v48) : S1x256.Idx → EReal) (ix2 0 q)) = fun q => (m ((c : Thread nD τ).loc main_arg9)) (ix1 q) :=
      funext fun q => (scale1_of (W4 m ρ c) q).trans (congrFun (arg9_at4 m ρ c) _)
    have hshift : (fun q : Fin 256 => (W5 m ρ c (Proc.devRef .tc main_v49) : S1x256.Idx → EReal) (ix2 0 q)) = fun q => (m ((c : Thread nD τ).loc main_arg10)) (ix1 q) :=
      funext fun q => (shift1_of (W4 m ρ c) q).trans (congrFun (arg10_at4 m ρ c) _)
    unfold BlockValue1.normed Cert.Gcn.ln
    rw [hbias, hscale, hshift, (res5_keep m ρ c).trans (resid4 m ρ c), agg1]))

/-! ## The second projection, the second aggregation and the result -/

theorem arg5_at6 : W6 m ρ c (Proc.devRef .tc main_arg5) = (m ((c : Thread nD τ).loc main_arg5)) :=
  (W6_of_ne m ρ c main_arg5 (by decide)).trans ((arg5_5_keep m ρ c).trans (arg5_at4 m ρ c))
theorem arg6_at7 : W7 m ρ c (Proc.devRef .tc main_arg6) = (m ((c : Thread nD τ).loc main_arg6)) :=
  (W7_of_ne m ρ c main_arg6 (by decide)).trans ((W6_of_ne m ρ c main_arg6 (by decide)).trans ((arg6_5_keep m ρ c).trans (arg6_at4 m ρ c)))
theorem arg11_at7 : W7 m ρ c (Proc.devRef .tc main_arg11) = (m ((c : Thread nD τ).loc main_arg11)) :=
  (W7_of_ne m ρ c main_arg11 (by decide)).trans ((W6_of_ne m ρ c main_arg11 (by decide)).trans ((arg11_5_keep m ρ c).trans (arg11_at4 m ρ c)))
theorem arg12_at7 : W7 m ρ c (Proc.devRef .tc main_arg12) = (m ((c : Thread nD τ).loc main_arg12)) :=
  (W7_of_ne m ρ c main_arg12 (by decide)).trans ((W6_of_ne m ρ c main_arg12 (by decide)).trans ((arg12_5_keep m ρ c).trans (arg12_at4 m ρ c)))

/-- The second projection is the reference's product of its first hop's output with the second weights. -/
theorem proj2 : W7 m ρ c (Proc.devRef .tc main_v51) = Cert.ReferenceIdeal.ReadP.val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg9)) (m ((c : Thread nD τ).loc main_arg10)) :=
  (W7_arr m ρ c 2).trans ((BlockValue2.final2_2 (V6 m ρ) c).trans (by
    show Cert.Gcn.mm (W6 m ρ c (Proc.devRef .tc main_v50)) (W6 m ρ c (Proc.devRef .tc main_arg5)) = _
    rw [hop1out, arg5_at6]
    exact (Cert.ReferenceIdeal.RefValue.dot256 _ _).symm))

/-- The stream is carried through the projection launch unchanged (it is that launch's input). -/
theorem stream7 : W7 m ρ c (Proc.devRef .tc main_v50) = Cert.ReferenceIdeal.ReadP.val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10)) :=
  (W7_arr m ρ c 0).trans (((dat2 (V6 m ρ) c).arrAt_in 0 rfl _).trans ((A_eq2 (V6 m ρ) c 0).trans (hop1out m ρ c)))

theorem norm7 : W7 m ρ c (Proc.devRef .tc main_v31) = Cert.ReferenceIdeal.ReadP.val_main_v102 (F := Ideal) (m ((c : Thread nD τ).loc main_arg1)) (m ((c : Thread nD τ).loc main_arg2)) :=
  (W7_of_ne m ρ c main_v31 (by decide)).trans ((W6_of_ne m ρ c main_v31 (by decide)).trans ((norm5_keep m ρ c).trans (norm4 m ρ c)))
theorem src7 : W7 m ρ c (Proc.devRef .tc main_v3) = Cert.ReferenceIdeal.ReadP.val_main_v3 (F := Ideal) (m ((c : Thread nD τ).loc main_arg1)) :=
  (W7_of_ne m ρ c main_v3 (by decide)).trans ((W6_of_ne m ρ c main_v3 (by decide)).trans ((src5_keep m ρ c).trans (src4 m ρ c)))
theorem dst7 : W7 m ρ c (Proc.devRef .tc main_v6) = Cert.ReferenceIdeal.ReadP.val_main_v6 (F := Ideal) (m ((c : Thread nD τ).loc main_arg1)) :=
  (W7_of_ne m ρ c main_v6 (by decide)).trans ((W6_of_ne m ρ c main_v6 (by decide)).trans ((dst5_keep m ρ c).trans (dst4 m ρ c)))

/-- The aggregated messages of the second hop are the reference's. -/
theorem agg2 : W8 m ρ c (Proc.devRef .tc main_v64) = Cert.ReferenceIdeal.ReadP.val_main_v115 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg9)) (m ((c : Thread nD τ).loc main_arg10)) :=
  agg2_of (W7 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg8)) (m ((c : Thread nD τ).loc main_arg9)) (m ((c : Thread nD τ).loc main_arg10)) (proj2 m ρ c) (norm7 m ρ c) (src7 m ρ c) (dst7 m ρ c)

/-- THE RESULT: the result buffer's contents at the return are the reference's result stage of the same
    arguments. -/
theorem result : W9 m ρ c (Proc.devRef .tc main_v68)
    = Cert.ReferenceIdeal.ReadP.val_main_v143 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  (W9_arr m ρ c 5).trans ((BlockValue3.final3_5 (V8 m ρ) c).trans (by
    rw [Cert.ReferenceIdeal.RefValue.norm2, Cert.ReferenceIdeal.RefValue.hop2]
    show BlockValue3.normed (W8 m ρ c (Proc.devRef .tc main_v50)) (W8 m ρ c (Proc.devRef .tc main_v64))
        (W8 m ρ c (Proc.devRef .tc main_v65)) (W8 m ρ c (Proc.devRef .tc main_v66)) (W8 m ρ c (Proc.devRef .tc main_v67)) = _
    have hbias : (fun q : Fin 256 => (W8 m ρ c (Proc.devRef .tc main_v65) : S1x256.Idx → EReal) (ix2 0 q)) = fun q => (m ((c : Thread nD τ).loc main_arg6)) (ix1 q) :=
      funext fun q => (bias2_of (W7 m ρ c) q).trans (congrFun (arg6_at7 m ρ c) _)
    have hscale : (fun q : Fin 256 => (W8 m ρ c (Proc.devRef .tc main_v66) : S1x256.Idx → EReal) (ix2 0 q)) = fun q => (m ((c : Thread nD τ).loc main_arg11)) (ix1 q) :=
      funext fun q => (scale2_of (W7 m ρ c) q).trans (congrFun (arg11_at7 m ρ c) _)
    have hshift : (fun q : Fin 256 => (W8 m ρ c (Proc.devRef .tc main_v67) : S1x256.Idx → EReal) (ix2 0 q)) = fun q => (m ((c : Thread nD τ).loc main_arg12)) (ix1 q) :=
      funext fun q => (shift2_of (W7 m ρ c) q).trans (congrFun (arg12_at7 m ρ c) _)
    unfold BlockValue3.normed Cert.Gcn.ln
    rw [hbias, hscale, hshift, (v50_8_keep m ρ c).trans (stream7 m ρ c), agg2]))

end Cert.KernelIdeal.Joined

end
-- ==== Proof.lean ====
/-
  The proof of the certificate's claim for a two-hop graph convolution with residual connection and row
  normalisation: a kernel program of four launches (a double projection, a fused bias / rectifier / residual /
  normalisation, a projection, a fused bias / residual / normalisation) among host operations that prepare the graph and
  aggregate messages over the edges, against a plain reference.

  Over the extended reals the two programs compute the same function of the arguments. The matrix products are the
  same sums over the contracted axis, whatever the tiling into 2000-row blocks; a row's normalisation reads that row
  only, so normalising block by block is normalising the array; mean and variance divide by the same 256, the variance
  floor is the same float word, and the reciprocal square root is one function on both sides; the graph preparation
  and the two aggregations are the same host operations applied to the same values. No step moves a factor across a
  sum or cancels, so nothing needs the inputs to be finite and the precondition is never opened.

  The three frames: the two kernel programs by their generated frame proofs, the reference by its run with the
  result dropped. `preserves` has no conjunct (the idealization rewrote nothing). `algebraic`: the kernel's run names the
  result buffer's final contents, which the launch-by-launch reading shows to be the reference's result stage of the
  arguments; the reference's run ends at the same stage of its own arguments, which agree.
-/
import proofs.«175884_j32375463477769_1_alg».proof.Defs
import proofs.«175884_j32375463477769_1_alg».proof.Proof.Gen.Kernel
import proofs.«175884_j32375463477769_1_alg».proof.Proof.Gen.Kernel.Skeleton
import proofs.«175884_j32375463477769_1_alg».proof.Proof.Gen.Kernel.Launch
import proofs.«175884_j32375463477769_1_alg».proof.Proof.Gen.Kernel.Points
import proofs.«175884_j32375463477769_1_alg».proof.Proof.Gen.Kernel.Frame
import proofs.«175884_j32375463477769_1_alg».proof.Proof.Gen.KernelIdeal
import proofs.«175884_j32375463477769_1_alg».proof.Proof.Gen.KernelIdeal.Skeleton
import proofs.«175884_j32375463477769_1_alg».proof.Proof.Gen.KernelIdeal.Launch
import proofs.«175884_j32375463477769_1_alg».proof.Proof.Gen.KernelIdeal.Points
import proofs.«175884_j32375463477769_1_alg».proof.Proof.Gen.KernelIdeal.Frame
import proofs.«175884_j32375463477769_1_alg».proof.Proof.Gen.ReferenceIdeal
import proofs.«175884_j32375463477769_1_alg».proof.Proof.Gen.Pre_finite_inputs
import proofs.«175884_j32375463477769_1_alg».proof.Proof.RunP
import proofs.«175884_j32375463477769_1_alg».proof.Proof.ReadP
import proofs.«175884_j32375463477769_1_alg».proof.Proof.KernelRun
import proofs.«175884_j32375463477769_1_alg».proof.Proof.Joined
import Idealize.ShloMosaic.Adequacy
import Idealize.ShloMosaic.Init

set_option maxRecDepth 16384

noncomputable section

namespace Cert.Proof

open Idealize.ShloMosaic Idealize.ShloMosaic.TcCoe Idealize.SL.Sem

/-- The reference run's result term is its last stage applied to the arguments. -/
theorem ref_result (m : (ℓ : Loc Cert.ReferenceIdeal.nD Cert.ReferenceIdeal.τ Cert.ReferenceIdeal.sig) → Buf (Elt Ideal) ℓ)
    (c : Dev Cert.ReferenceIdeal.nD) :
    Cert.ReferenceIdeal.ValueP.res_main_v143 m c
      = Cert.ReferenceIdeal.ReadP.val_main_v143 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) := by
  unfold Cert.ReferenceIdeal.ValueP.res_main_v143; rfl

theorem frame_kernel : Cert.frame_Kernel :=
  fun m ρ _ => Cert.Kernel.Gen.frame m ρ

theorem frame_kernelIdeal : Cert.frame_KernelIdeal :=
  fun m ρ _ => Cert.KernelIdeal.Gen.frame m ρ

theorem frame_referenceIdeal : Cert.frame_ReferenceIdeal :=
  fun m ρ _ => (θ_run Cert.ReferenceIdeal.defs _ _).mono (fun _ h c => (h c).2)
    (Cert.ReferenceIdeal.ValueP.run (F := Ideal) m ρ)

theorem preserves : Cert.preserves_Kernel_KernelIdeal := trivial

/-- Both programs end with the result at the reference's last stage of the kernel's arguments. -/
theorem algebraic : Cert.algebraic_KernelIdeal_ReferenceIdeal := by
  intro m ρ m' ρ' _ hagree
  refine ⟨fun c => Cert.ReferenceIdeal.ReadP.val_main_v143 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Joined.result m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5, h6, h7, h8, h9, h10, h11, h12⟩ := hagree c
    rw [ref_result m' c, h0, h1, h2, h3, h4, h5, h6, h7, h8, h9, h10, h11, h12]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
